-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x256 : Shape := ⟨2, ![1024, 256]⟩
abbrev S256x1 : Shape := ⟨2, ![256, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S8192x512 .f32) (main_arg1 : FVec F S1024x256 .f32) (main_arg2 : FVec F S256x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S8192x512 : Shape := ⟨2, ![8192, 512]⟩
abbrev S1024x256 : Shape := ⟨2, ![1024, 256]⟩
abbrev S256x1 : Shape := ⟨2, ![256, 1]⟩
abbrev S512x256 : Shape := ⟨2, ![512, 256]⟩
abbrev S512x1 : Shape := ⟨2, ![512, 1]⟩
abbrev S512x2 : Shape := ⟨2, ![512, 2]⟩
abbrev S8192x2 : Shape := ⟨2, ![8192, 2]⟩
abbrev S8192x1 : Shape := ⟨2, ![8192, 1]⟩
abbrev S1x8192 : Shape := ⟨2, ![1, 8192]⟩
abbrev S8192x8192 : Shape := ⟨2, ![8192, 8192]⟩
abbrev S1024x1 : Shape := ⟨2, ![1024, 1]⟩
abbrev S1x2048 : Shape := ⟨2, ![1, 2048]⟩
abbrev S1024x2048 : Shape := ⟨2, ![1024, 2048]⟩

abbrev nBuf : Space → Nat
  | .hbm => 18
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S1024x256, .f32⟩
  | .hbm, ⟨2, _⟩ => ⟨S256x1, .f32⟩
  | .hbm, ⟨3, _⟩ => ⟨S512x256, .f32⟩
  | .hbm, ⟨4, _⟩ => ⟨S512x256, .f32⟩
  | .hbm, ⟨5, _⟩ => ⟨S512x256, .bf16⟩
  | .hbm, ⟨6, _⟩ => ⟨S512x256, .bf16⟩
  | .hbm, ⟨7, _⟩ => ⟨S256x1, .bf16⟩
  | .hbm, ⟨8, _⟩ => ⟨S512x1, .f32⟩
  | .hbm, ⟨9, _⟩ => ⟨S512x1, .f32⟩
  | .hbm, ⟨10, _⟩ => ⟨S512x2, .f32⟩
  | .hbm, ⟨11, _⟩ => ⟨S512x2, .bf16⟩
  | .hbm, ⟨12, _⟩ => ⟨S8192x512, .bf16⟩
  | .hbm, ⟨13, _⟩ => ⟨S8192x2, .f32⟩
  | .hbm, ⟨14, _⟩ => ⟨S8192x1, .f32⟩
  | .hbm, ⟨15, _⟩ => ⟨S8192x1, .f32⟩
  | .hbm, ⟨16, _⟩ => ⟨S1x8192, .f32⟩
  | .hbm, ⟨17, _⟩ => ⟨S8192x8192, .f32⟩
  | .local _ .vmem, ⟨0, _⟩ => ⟨S1024x1, .f32⟩
  | .local _ .vmem, ⟨1, _⟩ => ⟨S1024x1, .f32⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c1024_i32 : BitVec 32 := 1024#32
  let v12 : BitVec 32 := Scalar.muli arg0 c1024_i32
  let arg1 : BitVec 32 := BitVec.ofNat 32 (i 1).val
  let c2048_i32 : BitVec 32 := 2048#32
  let v13 : BitVec 32 := Scalar.muli arg1 c2048_i32
  let c2048_i32_4 : BitVec 32 := 2048#32
  let v14 : BitVec 32 := Scalar.addi v13 c2048_i32_4
  let v15 : BitVec 1 := Scalar.cmpi .slt v12 v14
  let c1024_i32_5 : BitVec 32 := 1024#32
  let v16 : BitVec 32 := Scalar.addi v12 c1024_i32_5
  let v17 : BitVec 1 := Scalar.cmpi .slt v13 v16
  let v18 : BitVec 1 := Scalar.andi v15 v17
  let v19 : BitVec 32 := Scalar.extui v18
  let c0_i32 : BitVec 32 := 0#32
  let v20 : BitVec 1 := Scalar.cmpi .ne v19 c0_i32
  v20

def k0_cond2 (i : grid0.Coords) : BitVec 1 :=
  let arg0 : BitVec 32 := BitVec.ofNat 32 (i 0).val
  let c1024_i32 : BitVec 32 := 1024#32
  let v12 : BitVec 32 := Scalar.muli arg0 c1024_i32
  let arg1 : BitVec 32 := BitVec.ofNat 32 (i 1).val
  let c2048_i32 : BitVec 32 := 2048#32
  let v13 : BitVec 32 := Scalar.muli arg1 c2048_i32
  let c2048_i32_4 : BitVec 32 := 2048#32
  let v14 : BitVec 32 := Scalar.addi v13 c2048_i32_4
  let v15 : BitVec 1 := Scalar.cmpi .slt v12 v14
  let c1024_i32_5 : BitVec 32 := 1024#32
  let v16 : BitVec 32 := Scalar.addi v12 c1024_i32_5
  let v17 : BitVec 1 := Scalar.cmpi .slt v13 v16
  let v18 : BitVec 1 := Scalar.andi v15 v17
  let v_true : BitVec 1 := 1#1
  let v21 : BitVec 1 := Scalar.xori v18 v_true
  let v22 : BitVec 32 := Scalar.extui v21
  let c0_i32_6 : BitVec 32 := 0#32
  let v23 : BitVec 1 := Scalar.cmpi .ne v22 c0_i32_6
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S1024x256_S512x256_0_0 : S1024x256.Slices ![0, 0] S512x256
  slices_S1024x256_S512x256_512_0 : S1024x256.Slices ![512, 0] S512x256
  bitsLt_bf16_f32 : FTy.bits .bf16 < FTy.bits .f32
  concatenates_S512x1_S512x1_S512x2_d1 : Shape.Concatenates [S512x1, S512x1] S512x2 1
  slices_S8192x2_S8192x1_0_0 : S8192x2.Slices ![0, 0] S8192x1
  slices_S8192x2_S8192x1_0_1 : S8192x2.Slices ![0, 1] S8192x1
  shapeCasts_S8192x1_S1x8192 : S8192x1.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  iota_S1024x1_d0_w32 : S1024x1.Iotas .tc 32 [0]
  iota_S1x2048_d1_w32 : S1x2048.Iotas .tc 32 [1]
  inb_S1024x2048_S1024x2048_0_0 : ∀ a, (![0, 0] : Fin 2 → Nat) a + S1024x2048.size a ≤ S1024x2048.size a
  h_S1024x2048 : 0 < S1024x2048.numel
  dot_S512x256_S256x1_S512x1_1_0_0_1_n_n_wf : DotDims.WF S512x256 S256x1 S512x1 [1] [0] [0] [1] [] []
  dot_S8192x512_S512x2_S8192x2_1_0_0_1_n_n_wf : DotDims.WF S8192x512 S512x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf
def dot_S8192x512_S512x2_S8192x2_1_0_0_1_n_n : DotDims S8192x512 S512x2 S8192x2 where
  lhsContracting := [1]
  rhsContracting := [0]
  lhsNonContracting := [0]
  rhsNonContracting := [1]
  lhsBatch := []
  rhsBatch := []
  wf := dot_S8192x512_S512x2_S8192x2_1_0_0_1_n_n_wf

abbrev win0_0 : Pipeline.Window sig grid0 :=
  Pipeline.Window.ofSpec (Memref.whole main_v11) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S1024x256 : Shape := ⟨2, ![1024, 256]⟩
abbrev S256x1 : Shape := ⟨2, ![256, 1]⟩
abbrev S512x256 : Shape := ⟨2, ![512, 256]⟩
abbrev S8192x256 : Shape := ⟨2, ![8192, 256]⟩
abbrev S8192x1 : Shape := ⟨2, ![8192, 1]⟩
abbrev S8192 : Shape := ⟨1, ![8192]⟩
abbrev S1x8192 : Shape := ⟨2, ![1, 8192]⟩
abbrev S8192x8192 : Shape := ⟨2, ![8192, 8192]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x256, .f32⟩
  | .hbm, ⟨2, _⟩ => ⟨S256x1, .f32⟩
  | .hbm, ⟨3, _⟩ => ⟨S512x256, .f32⟩
  | .hbm, ⟨4, _⟩ => ⟨S8192x256, .f32⟩
  | .hbm, ⟨5, _⟩ => ⟨S8192x1, .f32⟩
  | .hbm, ⟨6, _⟩ => ⟨S512x256, .f32⟩
  | .hbm, ⟨7, _⟩ => ⟨S8192x256, .f32⟩
  | .hbm, ⟨8, _⟩ => ⟨S8192x1, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S_, .f32⟩
  | .hbm, ⟨16, _⟩ => ⟨S8192x8192, .f32⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  slices_S1024x256_S512x256_0_0 : S1024x256.Slices ![0, 0] S512x256
  slices_S1024x256_S512x256_512_0 : S1024x256.Slices ![512, 0] S512x256
  shapeCasts_S8192x1_S8192 : S8192x1.ShapeCasts S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.BodyBits.lean ====
/-
  The masked-score kernel body at one grid point, and the pipeline run built on it (the program as printed).

  A grid point (i, j) owns the 1024×2048 block of the score array with rows from 1024·i and columns from 2048·j. The
  body reads a 1024×1 column of left scores and a 1×2048 row of right scores and stores the whole block once: where
  the block meets the diagonal (1024·i < 2048·j + 2048 and 2048·j < 1024·i + 1024) it stores the rectified sums with
  the entries whose global row equals their global column replaced by zero; elsewhere it stores the rectified sums as
  they are. Exactly one of the two conditions holds at every point of the 8×4 grid, so the block is stored exactly
  once at every point, and what the block holds afterwards is a function of the point and of the two input blocks.
  Every block is written back after its point, the two inputs are only read: the run ends with the arguments as they
  were and the score array assembled from the blocks.
-/
import proofs.«161237_j68573447848370_2_alg».proof.Proof.Gen.Kernel.Launch
import proofs.«161237_j68573447848370_2_alg».proof.Proof.Gen.Kernel.Skeleton
import proofs.«161237_j68573447848370_2_alg».proof.Proof.Gen.Kernel.Points
import proofs.«161237_j68573447848370_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rL : Rect S1024x1 := Rect.unit (s := S1024x1) ![0, 0] S1024x1.size Facts₀.inb_S1024x1_S1024x1_0_0
abbrev rR : Rect S1x2048 := Rect.unit (s := S1x2048) ![0, 0] S1x2048.size Facts₀.inb_S1x2048_S1x2048_0_0
abbrev rO : Rect S1024x2048 := Rect.unit (s := S1024x2048) ![0, 0] S1024x2048.size Facts₀.inb_S1024x2048_S1024x2048_0_0

/-! ## The two conditions over the grid -/

/-- At every grid point exactly one of the body's two conditions holds: the block meets the diagonal, or it does not. -/
theorem cond_cases : ∀ t : Fin cfg0.N,
    (k0_cond1 (grid0.coords t) = 1#1 ∧ ¬ k0_cond2 (grid0.coords t) = 1#1)
      ∨ (¬ k0_cond1 (grid0.coords t) = 1#1 ∧ k0_cond2 (grid0.coords t) = 1#1) :=
  (by decide +kernel : ∀ t : Fin grid0.N,
    (k0_cond1 (grid0.coords t) = 1#1 ∧ ¬ k0_cond2 (grid0.coords t) = 1#1)
      ∨ (¬ k0_cond1 (grid0.coords t) = 1#1 ∧ k0_cond2 (grid0.coords t) = 1#1))

/-! ## What the body leaves in the output block -/

/-- The block after the body where it meets the diagonal: the one store of the masked rectified sums. -/
def outDiag (i : grid0.Coords) (x0 : Vec F S1024x1 .f32) (x1 : Vec F S1x2048 .f32) : Vec F S1024x2048 .f32 :=
  View.canon [⟨rO, k0_pay2 i (View.ld x0 rL) (View.ld x1 rR)⟩]

/-- The block after the body away from the diagonal: the one store of the rectified sums. -/
def outOff (x0 : Vec F S1024x1 .f32) (x1 : Vec F S1x2048 .f32) : Vec F S1024x2048 .f32 :=
  View.canon [⟨rO, k0_pay1 (View.ld x0 rL) (View.ld x1 rR)⟩]

/-- The block after the body at a point: by the first condition. -/
def outAt (i : grid0.Coords) (x0 : Vec F S1024x1 .f32) (x1 : Vec F S1x2048 .f32) : Vec F S1024x2048 .f32 :=
  if k0_cond1 i = 1#1 then outDiag i x0 x1 else outOff x0 x1

/-- The one store covers the block. -/
theorem coverO (p0 : Vec F S1024x2048 .f32) (y : S1024x2048.Idx) :
    ∃ pc ∈ ([⟨rO, p0⟩] : List (View.Piece (Elt F) S1024x2048 .f32)), y ∈ pc.1.set :=
  View.cover_of_tiled [⟨rO, p0⟩] S1024x2048.size (by rfl) y

/-! ## The body's triple, in each of the two cases -/

set_option maxHeartbeats 1000000 in
/-- Where the block meets the diagonal: the body, on whole staging memrefs holding the two input blocks and anything
    in the output's, runs to the continuation with the inputs as they were and the output at `outDiag`. -/
theorem sound_diag (c : Dev nD) (E : Set ℕ) (i : grid0.Coords)
    (arg2 : Memref sig .tc .vmem S1024x1 .f32) (harg2 : arg2.IsWhole) (arg3 : Memref sig .tc .vmem S1x2048 .f32) (harg3 : arg3.IsWhole)
    (arg4 : Memref sig .tc .vmem S1024x2048 .f32) (harg4 : arg4.IsWhole)
    (h1 : k0_cond1 i = 1#1) (h2 : ¬ k0_cond2 i = 1#1)
    (x0 : Vec F S1024x1 .f32) (x1 : Vec F S1x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outDiag i x0 x1)) -∗ K ⟨⟩))
      ⊢ wp frame (wpE (defs₀ (F := F)) Variants.none c none) E (cc0__broadcast_leaky_relu_mask_kernel i arg2 harg2 arg3 harg3 arg4 harg4) K := by
  simp only [cc0__broadcast_leaky_relu_mask_kernel_eq_skeleton]; unfold cc0__broadcast_leaky_relu_mask_kernel_skel
  unfold owns
  iintro ⟨⟨%f0, %hf0, H0⟩, ⟨%f1, %hf1, H1⟩, ⟨%d2, %f2, -, H2⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

set_option maxHeartbeats 1000000 in
/-- Away from the diagonal: the same, the output at `outOff`. -/
theorem sound_off (c : Dev nD) (E : Set ℕ) (i : grid0.Coords)
    (arg2 : Memref sig .tc .vmem S1024x1 .f32) (harg2 : arg2.IsWhole) (arg3 : Memref sig .tc .vmem S1x2048 .f32) (harg3 : arg3.IsWhole)
    (arg4 : Memref sig .tc .vmem S1024x2048 .f32) (harg4 : arg4.IsWhole)
    (h1 : ¬ k0_cond1 i = 1#1) (h2 : k0_cond2 i = 1#1)
    (x0 : Vec F S1024x1 .f32) (x1 : Vec F S1x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outOff x0 x1)) -∗ K ⟨⟩))
      ⊢ wp frame (wpE (defs₀ (F := F)) Variants.none c none) E (cc0__broadcast_leaky_relu_mask_kernel i arg2 harg2 arg3 harg3 arg4 harg4) K := by
  simp only [cc0__broadcast_leaky_relu_mask_kernel_eq_skeleton]; unfold cc0__broadcast_leaky_relu_mask_kernel_skel
  unfold owns
  iintro ⟨⟨%f0, %hf0, H0⟩, ⟨%f1, %hf1, H1⟩, ⟨%d2, %f2, -, H2⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The pipeline's proof data -/

/-- The proof data on core `c`: the arrays as the region finds them; after the body at point `t` each input's buffer
    at its block and the output's at `outAt` of the point and the two input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outAt (grid0.coords t) (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks; the point is in one of the two cases, and that
    case's triple applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rcases cond_cases t with ⟨h1, h2⟩ | ⟨h1, h2⟩
  · rw [show outAt (grid0.coords t) (iblk m c 0 t) (iblk m c 1 t) = outDiag (grid0.coords t) (iblk m c 0 t) (iblk m c 1 t) from if_pos h1]
    iintro ⟨HΦ, Ho, ⟨%d0, H0⟩, ⟨%d1, H1⟩, ⟨%d2, H2⟩⟩
    iapply (sound_diag c Set.univ (grid0.coords t) _ _ _ _ _ _ h1 h2 (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [show outAt (grid0.coords t) (iblk m c 0 t) (iblk m c 1 t) = outOff (iblk m c 0 t) (iblk m c 1 t) from if_neg h1]
    iintro ⟨HΦ, Ho, ⟨%d0, H0⟩, ⟨%d1, H1⟩, ⟨%d2, H2⟩⟩
    iapply (sound_off c Set.univ (grid0.coords t) _ _ _ _ _ _ h1 h2 (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2

/-- The output block is stored at every point: neither condition failing both. -/
theorem idle_out : ∀ t : Fin cfg0.N, idle0 2 (grid0.coords t) = false :=
  (by decide +kernel : ∀ t : Fin grid0.N, idle0 2 (grid0.coords t) = false)

end Cert.Kernel.Body

end
-- ==== Proof.RunBits.lean ====
/-
  The pipeline run over the masked-score kernel body: the body's triple at every grid point is the library's body
  obligation, the launch theorem runs the pipeline over it, and the run's post gives back the argument arrays as they
  were (the frame) and the score array as the library assembles it from the blocks written back.
-/
import proofs.«161237_j68573447848370_2_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  simp only [idle_out t]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyIdeal.lean ====
/-
  The masked-score kernel body at one grid point, and the pipeline run built on it (the idealized program).

  A grid point (i, j) owns the 1024×2048 block of the score array with rows from 1024·i and columns from 2048·j. The
  body reads a 1024×1 column of left scores and a 1×2048 row of right scores and stores the whole block once: where
  the block meets the diagonal (1024·i < 2048·j + 2048 and 2048·j < 1024·i + 1024) it stores the rectified sums with
  the entries whose global row equals their global column replaced by zero; elsewhere it stores the rectified sums as
  they are. Exactly one of the two conditions holds at every point of the 8×4 grid, so the block is stored exactly
  once at every point, and what the block holds afterwards is a function of the point and of the two input blocks.
  Every block is written back after its point, the two inputs are only read: the run ends with the arguments as they
  were and the score array assembled from the blocks.
-/
import proofs.«161237_j68573447848370_2_alg».proof.Proof.Gen.KernelIdeal.Launch
import proofs.«161237_j68573447848370_2_alg».proof.Proof.Gen.KernelIdeal.Skeleton
import proofs.«161237_j68573447848370_2_alg».proof.Proof.Gen.KernelIdeal.Points
import proofs.«161237_j68573447848370_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rL : Rect S1024x1 := Rect.unit (s := S1024x1) ![0, 0] S1024x1.size Facts₀.inb_S1024x1_S1024x1_0_0
abbrev rR : Rect S1x2048 := Rect.unit (s := S1x2048) ![0, 0] S1x2048.size Facts₀.inb_S1x2048_S1x2048_0_0
abbrev rO : Rect S1024x2048 := Rect.unit (s := S1024x2048) ![0, 0] S1024x2048.size Facts₀.inb_S1024x2048_S1024x2048_0_0

/-! ## The two conditions over the grid -/

/-- At every grid point exactly one of the body's two conditions holds: the block meets the diagonal, or it does not. -/
theorem cond_cases : ∀ t : Fin cfg0.N,
    (k0_cond1 (grid0.coords t) = 1#1 ∧ ¬ k0_cond2 (grid0.coords t) = 1#1)
      ∨ (¬ k0_cond1 (grid0.coords t) = 1#1 ∧ k0_cond2 (grid0.coords t) = 1#1) :=
  (by decide +kernel : ∀ t : Fin grid0.N,
    (k0_cond1 (grid0.coords t) = 1#1 ∧ ¬ k0_cond2 (grid0.coords t) = 1#1)
      ∨ (¬ k0_cond1 (grid0.coords t) = 1#1 ∧ k0_cond2 (grid0.coords t) = 1#1))

/-! ## What the body leaves in the output block -/

/-- The block after the body where it meets the diagonal: the one store of the masked rectified sums. -/
def outDiag (i : grid0.Coords) (x0 : Vec F S1024x1 .f32) (x1 : Vec F S1x2048 .f32) : Vec F S1024x2048 .f32 :=
  View.canon [⟨rO, k0_pay2 i (View.ld x0 rL) (View.ld x1 rR)⟩]

/-- The block after the body away from the diagonal: the one store of the rectified sums. -/
def outOff (x0 : Vec F S1024x1 .f32) (x1 : Vec F S1x2048 .f32) : Vec F S1024x2048 .f32 :=
  View.canon [⟨rO, k0_pay1 (View.ld x0 rL) (View.ld x1 rR)⟩]

/-- The block after the body at a point: by the first condition. -/
def outAt (i : grid0.Coords) (x0 : Vec F S1024x1 .f32) (x1 : Vec F S1x2048 .f32) : Vec F S1024x2048 .f32 :=
  if k0_cond1 i = 1#1 then outDiag i x0 x1 else outOff x0 x1

/-- The one store covers the block. -/
theorem coverO (p0 : Vec F S1024x2048 .f32) (y : S1024x2048.Idx) :
    ∃ pc ∈ ([⟨rO, p0⟩] : List (View.Piece (Elt F) S1024x2048 .f32)), y ∈ pc.1.set :=
  View.cover_of_tiled [⟨rO, p0⟩] S1024x2048.size (by rfl) y

/-! ## The body's triple, in each of the two cases -/

set_option maxHeartbeats 1000000 in
/-- Where the block meets the diagonal: the body, on whole staging memrefs holding the two input blocks and anything
    in the output's, runs to the continuation with the inputs as they were and the output at `outDiag`. -/
theorem sound_diag (c : Dev nD) (E : Set ℕ) (i : grid0.Coords)
    (arg2 : Memref sig .tc .vmem S1024x1 .f32) (harg2 : arg2.IsWhole) (arg3 : Memref sig .tc .vmem S1x2048 .f32) (harg3 : arg3.IsWhole)
    (arg4 : Memref sig .tc .vmem S1024x2048 .f32) (harg4 : arg4.IsWhole)
    (h1 : k0_cond1 i = 1#1) (h2 : ¬ k0_cond2 i = 1#1)
    (x0 : Vec F S1024x1 .f32) (x1 : Vec F S1x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outDiag i x0 x1)) -∗ K ⟨⟩))
      ⊢ wp frame (wpE (defs₀ (F := F)) Variants.none c none) E (cc0__broadcast_leaky_relu_mask_kernel i arg2 harg2 arg3 harg3 arg4 harg4) K := by
  simp only [cc0__broadcast_leaky_relu_mask_kernel_eq_skeleton]; unfold cc0__broadcast_leaky_relu_mask_kernel_skel
  unfold owns
  iintro ⟨⟨%f0, %hf0, H0⟩, ⟨%f1, %hf1, H1⟩, ⟨%d2, %f2, -, H2⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

set_option maxHeartbeats 1000000 in
/-- Away from the diagonal: the same, the output at `outOff`. -/
theorem sound_off (c : Dev nD) (E : Set ℕ) (i : grid0.Coords)
    (arg2 : Memref sig .tc .vmem S1024x1 .f32) (harg2 : arg2.IsWhole) (arg3 : Memref sig .tc .vmem S1x2048 .f32) (harg3 : arg3.IsWhole)
    (arg4 : Memref sig .tc .vmem S1024x2048 .f32) (harg4 : arg4.IsWhole)
    (h1 : ¬ k0_cond1 i = 1#1) (h2 : k0_cond2 i = 1#1)
    (x0 : Vec F S1024x1 .f32) (x1 : Vec F S1x2048 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outOff x0 x1)) -∗ K ⟨⟩))
      ⊢ wp frame (wpE (defs₀ (F := F)) Variants.none c none) E (cc0__broadcast_leaky_relu_mask_kernel i arg2 harg2 arg3 harg3 arg4 harg4) K := by
  simp only [cc0__broadcast_leaky_relu_mask_kernel_eq_skeleton]; unfold cc0__broadcast_leaky_relu_mask_kernel_skel
  unfold owns
  iintro ⟨⟨%f0, %hf0, H0⟩, ⟨%f1, %hf1, H1⟩, ⟨%d2, %f2, -, H2⟩, Hk⟩
  subst hf0 hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverO _)

/-! ## The pipeline's proof data -/

/-- The proof data on core `c`: the arrays as the region finds them; after the body at point `t` each input's buffer
    at its block and the output's at `outAt` of the point and the two input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt (grid0.coords t) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outAt (grid0.coords t) (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks; the point is in one of the two cases, and that
    case's triple applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rcases cond_cases t with ⟨h1, h2⟩ | ⟨h1, h2⟩
  · rw [show outAt (grid0.coords t) (iblk m c 0 t) (iblk m c 1 t) = outDiag (grid0.coords t) (iblk m c 0 t) (iblk m c 1 t) from if_pos h1]
    iintro ⟨HΦ, Ho, ⟨%d0, H0⟩, ⟨%d1, H1⟩, ⟨%d2, H2⟩⟩
    iapply (sound_diag c Set.univ (grid0.coords t) _ _ _ _ _ _ h1 h2 (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [show outAt (grid0.coords t) (iblk m c 0 t) (iblk m c 1 t) = outOff (iblk m c 0 t) (iblk m c 1 t) from if_neg h1]
    iintro ⟨HΦ, Ho, ⟨%d0, H0⟩, ⟨%d1, H1⟩, ⟨%d2, H2⟩⟩
    iapply (sound_off c Set.univ (grid0.coords t) _ _ _ _ _ _ h1 h2 (iblk m c 0 t) (iblk m c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2

/-- The output block is stored at every point: neither condition failing both. -/
theorem idle_out : ∀ t : Fin cfg0.N, idle0 2 (grid0.coords t) = false :=
  (by decide +kernel : ∀ t : Fin grid0.N, idle0 2 (grid0.coords t) = false)

end Cert.KernelIdeal.Body

end
-- ==== Proof.RunIdeal.lean ====
/-
  The pipeline run over the masked-score kernel body: the body's triple at every grid point is the library's body
  obligation, the launch theorem runs the pipeline over it, and the run's post gives back the argument arrays as they
  were (the frame) and the score array as the library assembles it from the blocks written back.
-/
import proofs.«161237_j68573447848370_2_alg».proof.Proof.BodyIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point. -/
theorem body_obligation (c : Dev nD) : BodyObligation (dats (F := F) m 0 c) (defs₀ (F := F)) Variants.none () Set.univ := fun t => by
  rw [bigSep_W0, bigSep_W0]
  simp only [idle_out t]
  exact sound_body m c t

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«161237_j68573447848370_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibRealSums.lean ====
/-
  A real factor and a finite sum, in the extended reals. Multiplication does not distribute over sums of extended reals
  in general (an infinity of each sign spoils it), but it does over reals: a real factor distributes over a sum of two
  reals, and moves inside a finite sum of products of reals, (Σ f·g)·c = Σ f·(g·c). Also: the larger of two reals is a
  real. Nothing here mentions a program.
-/
import Mathlib.Algebra.BigOperators.Fin
import Mathlib.Data.EReal.Inv
import proofs.«161237_j68573447848370_2_alg».proof.Proof.LibIdealSums

open scoped BigOperators

namespace Cert.Lib.RealSums

open Cert.Lib.IdealSums

/-- The larger of two reals is a real. -/
theorem isReal_max {x y : EReal} (hx : IsReal x) (hy : IsReal y) : IsReal (max x y) := by
  rcases max_choice x y with h | h <;> rw [h] <;> assumption

/-- A real factor distributes over a sum of two reals. -/
theorem add_mul_of_isReal {u v c : EReal} (hu : IsReal u) (hv : IsReal v) (hc : IsReal c) :
    (u + v) * c = u * c + v * c := by
  obtain ⟨a, rfl⟩ := hu; obtain ⟨b, rfl⟩ := hv; obtain ⟨d, rfl⟩ := hc
  rw [← EReal.coe_add, ← EReal.coe_mul, ← EReal.coe_mul, ← EReal.coe_mul, ← EReal.coe_add, add_mul]

/-- A real factor moves inside a finite sum of products of reals: (Σ f·g)·c = Σ f·(g·c). -/
theorem sum_mul_of_isReal {ι : Type*} (s : Finset ι) (f g : ι → EReal) (c : EReal)
    (hf : ∀ i ∈ s, IsReal (f i)) (hg : ∀ i ∈ s, IsReal (g i)) (hc : IsReal c) :
    (∑ i ∈ s, f i * g i) * c = ∑ i ∈ s, f i * (g i * c) := by
  classical
  induction s using Finset.induction_on with
  | empty => simp
  | insert a s ha ih =>
    have hs : IsReal (∑ i ∈ s, f i * g i) :=
      IsReal.sum s fun i hi => (hf i (Finset.mem_insert_of_mem hi)).mul (hg i (Finset.mem_insert_of_mem hi))
    have ha' : IsReal (f a * g a) := (hf a (Finset.mem_insert_self a s)).mul (hg a (Finset.mem_insert_self a s))
    rw [Finset.sum_insert ha, Finset.sum_insert ha, add_mul_of_isReal ha' hs hc, mul_assoc,
      ih (fun i hi => hf i (Finset.mem_insert_of_mem hi)) (fun i hi => hg i (Finset.mem_insert_of_mem hi))]

end Cert.Lib.RealSums
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«161237_j68573447848370_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«161237_j68573447848370_2_alg».proof.Proof.LibBlockReads
import proofs.«161237_j68573447848370_2_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibDenseLayers.lean ====
/-
  Dense layers on the extended reals, as functions of whole arrays.

  A layer takes an r×k array X, a k×n array W and a vector b of n entries to the r×n array whose entry (p, q) is the
  sum over c of X(p, c) · W(c, q), plus b(q) — `affine` — or the maximum of that and zero — `dense`. An entry of a
  layer's result depends on one row of X, one column of W and one entry of b, so a layer applied to some rows of X
  (and to some columns of W with the matching entries of b) gives those rows (and columns) of the layer applied to
  the whole arrays: `dense_rows`, `affine_rows`, `affine_block`, with the row and column maps as variables. The two
  spellings of the bias are read once — a kernel body's (the vector re-shaped to a 1×n row, broadcast down the rows,
  added: `body_bias`, and with the maximum with a splat of the zero word: `body_bias_max`) and a host program's (the
  vector broadcast into a 1×n row and that into the r×n array, added: `host_bias`; with the maximum it is
  `Cert.Lib.BiasRelu.host_eq`) — and `max_biasAdd` takes the maximum of an already-read bias with the zero splat
  (the form a rewriting pass meets, since it reads the inner sum first). Sums and maxima on the extended reals need no
  finiteness here: nothing is distributed or cancelled. Nothing here mentions a program.
-/
import Idealize.ShloMosaic.PureOps.Ideal.Laws
import Idealize.ShloMosaic.Lib.ValueIdx
import Idealize.ShloMosaic.Lib.Pipeline.Value
import proofs.«161237_j68573447848370_2_alg».proof.Proof.LibMatProd
import proofs.«161237_j68573447848370_2_alg».proof.Proof.LibBiasRelu
import proofs.«161237_j68573447848370_2_alg».proof.Proof.LibRowVector
import proofs.«161237_j68573447848370_2_alg».proof.Proof.LibBlockReads

open scoped BigOperators

noncomputable section

namespace Cert.Layers

open Idealize.ShloMosaic Idealize.ShloMosaic.ValueIdx Cert.Lib.MatProd Cert.Lib.BiasRelu Cert.Lib.RowVector

variable {r r' k n n' : Nat}

/-- Entry (p, q) is X(p, q) + b(0, q). -/
def biasAdd (X : (⟨2, ![r, n]⟩ : Shape).Idx → EReal) (b : (⟨2, ![1, n]⟩ : Shape).Idx → EReal) :
    (⟨2, ![r, n]⟩ : Shape).Idx → EReal :=
  fun i => X i + b (ix2 (0 : Fin 1) (⟨(i 1).val, idx2_lt1 i⟩ : Fin n))

theorem biasAdd_apply (X : (⟨2, ![r, n]⟩ : Shape).Idx → EReal) (b : (⟨2, ![1, n]⟩ : Shape).Idx → EReal)
    (p : Fin r) (q : Fin n) : biasAdd X b (ix2 p q) = X (ix2 p q) + b (ix2 0 q) := rfl

/-- A layer with the maximum: entry (p, q) is max (∑ c, X(p, c) · W(c, q) + b(q)) 0. -/
def dense (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasRelu (matProd X W) (asRow b)

/-- A layer without it: entry (p, q) is ∑ c, X(p, c) · W(c, q) + b(q). -/
def affine (X : (⟨2, ![r, k]⟩ : Shape).Idx → EReal) (W : (⟨2, ![k, n]⟩ : Shape).Idx → EReal)
    (b : (⟨1, ![n]⟩ : Shape).Idx → EReal) : (⟨2, ![r, n]⟩ : Shape).Idx → EReal :=
  biasAdd (matProd X W) (asRow b)

/-- If row p of X' is row ρ p of X, row p of `dense X' W b` is row ρ p of `dense X W b`. -/
theorem dense_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    dense X' W b (ix2 p q) = dense X W b (ix2 (ρ p) q) :=
  biasRelu_rows _ _ _ p (ρ p) q (matProd_block X X' W W p q (ρ p) q (h p) fun _ => rfl)

/-- The same for a layer without the maximum, a block of columns of W and the matching entries of b taken as well:
    if also column q of W' is column γ q of W and entry q of b' is entry γ q of b, entry (p, q) of
    `affine X' W' b'` is entry (ρ p, γ q) of `affine X W b`. -/
theorem affine_block (X : (⟨2, ![r, k]⟩ : Shape).Idx → EReal) (X' : (⟨2, ![r', k]⟩ : Shape).Idx → EReal)
    (W : (⟨2, ![k, n]⟩ : Shape).Idx → EReal) (W' : (⟨2, ![k, n']⟩ : Shape).Idx → EReal)
    (b : (⟨1, ![n]⟩ : Shape).Idx → EReal) (b' : (⟨1, ![n']⟩ : Shape).Idx → EReal)
    (ρ : Fin r' → Fin r) (γ : Fin n' → Fin n)
    (hX : ∀ (p : Fin r') (c : Fin k), X' (ix2 p c) = X (ix2 (ρ p) c))
    (hW : ∀ (c : Fin k) (q : Fin n'), W' (ix2 c q) = W (ix2 c (γ q)))
    (hb : ∀ q : Fin n', b' (ix1 q) = b (ix1 (γ q))) (p : Fin r') (q : Fin n') :
    affine X' W' b' (ix2 p q) = affine X W b (ix2 (ρ p) (γ q)) := by
  unfold affine
  rw [biasAdd_apply, biasAdd_apply, asRow_apply, asRow_apply, hb q,
    matProd_block X X' W W' p q (ρ p) (γ q) (hX p) fun c => hW c q]

theorem affine_rows (X : (⟨2, ![r, k]⟩ : Shape).Idx → EReal) (X' : (⟨2, ![r', k]⟩ : Shape).Idx → EReal)
    (W : (⟨2, ![k, n]⟩ : Shape).Idx → EReal) (b : (⟨1, ![n]⟩ : Shape).Idx → EReal) (ρ : Fin r' → Fin r)
    (h : ∀ (p : Fin r') (c : Fin k), X' (ix2 p c) = X (ix2 (ρ p) c)) (p : Fin r') (q : Fin n) :
    affine X' W b (ix2 p q) = affine X W b (ix2 (ρ p) q) :=
  affine_block X X' W W b b ρ id h (fun _ _ => rfl) (fun _ => rfl) p q

/-! ## The two spellings of a layer's bias and maximum -/

/-- The kernel body's bias: the vector re-shaped to a 1×n row and broadcast down the rows, then added. -/
theorem body_bias (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    addf M (broadcastTo ⟨2, ![r, n]⟩ (shapeCast ⟨2, ![1, n]⟩ v h) hb) = biasAdd M (asRow v) := by
  funext i
  obtain ⟨p, q, rfl⟩ : ∃ (p : Fin r) (q : Fin n), i = ix2 p q := ⟨i 0, i 1, eq_ix2 i⟩
  rw [addf_apply, Cert.Lib.BlockReads.broadcast_row_apply, shapeCast_eq_asRow]
  rfl

/-- The kernel body's bias and maximum with a splat of the zero word. -/
theorem body_bias_max (M : FVec Ideal ⟨2, ![r, n]⟩ .f32) (v : FVec Ideal ⟨1, ![n]⟩ .f32)
    (h : (⟨1, ![n]⟩ : Shape).ShapeCasts ⟨2, ![1, n]⟩) (hb : (⟨2, ![1, n]⟩ : Shape).Broadcasts ⟨2, ![r, n]⟩) :
    maximumf (addf M (broadcastTo ⟨2, ![r, n]⟩ (shapeCast ⟨2, ![1, n]⟩ v h) hb))
      (broadcast ⟨2, ![r, n]⟩ (Scalar.ofBits (F := Ideal) .f32 0x00000000#32)) = biasRelu M (asRow v) := by
  funext i
  obtain ⟨p, q, rfl⟩ : ∃ (p : Fin r) (q : Fin n), i = ix2 p q := ⟨i 0, i 1, eq_ix2 i⟩
  rw [maximumf_apply, addf_apply, Cert.Lib.BlockReads.broadcast_row_apply, shapeCast_eq_asRow]
  rfl

/-- The reference's bias: the vector broadcast into a 1×n row and that into the r×n array, then added. -/
theorem host_bias (M : FVec Ideal ⟨2, ![r, n]⟩ .f32) (v : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf M (broadcastInDim ⟨2, ![r, n]⟩ ![0, 1] h2 (broadcastInDim ⟨2, ![1, n]⟩ ![1] h1 v)) = biasAdd M (asRow v) := by
  funext i
  obtain ⟨p, q, rfl⟩ : ∃ (p : Fin r) (q : Fin n), i = ix2 p q := ⟨i 0, i 1, eq_ix2 i⟩
  rw [addf_apply, bcastInDim_rows_apply, bcastInDim_eq_asRow]
  rfl

/-- The maximum of a biased matrix with a splat of the zero word is the bias and maximum in one. -/
theorem max_biasAdd (M : (⟨2, ![r, n]⟩ : Shape).Idx → EReal) (b : (⟨2, ![1, n]⟩ : Shape).Idx → EReal) :
    maximumf (F := Ideal) (s := ⟨2, ![r, n]⟩) (φ := .f32) (biasAdd M b)
      (broadcast ⟨2, ![r, n]⟩ (FloatOps.ofBits (F := Ideal) .f32 0x00000000#32)) = biasRelu M b := by
  funext i
  rw [maximumf_apply]
  rfl

end Cert.Layers

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«161237_j68573447848370_2_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.LibInPlaceBodies.lean ====
/-
  Kernel bodies that re-shape a loaded block in place before using it, read once on the extended reals, and the
  dependence of a biased entry on one entry of the matrix, stated with whole indices.

  A product of two blocks narrowed to a shorter float format and accumulated into zeros is the matrix product of the
  blocks: narrowing a float is the identity on the extended reals. The same holds when the left block is first re-shaped
  to its own shape. A 1×n row re-shaped in place, broadcast down the rows of an r×n block that is itself re-shaped in
  place, and added, is the bias row added to every row. Entry i of a biased (or biased and clamped) matrix depends on
  entry i of the matrix and on the column of i only, so a block whose entry y is entry i of a larger matrix, in the same
  column, gives the larger matrix's biased entry. No finiteness is used: nothing is distributed or cancelled.
  Nothing here mentions a program.
-/
import Idealize.ShloMosaic.PureOps.Ideal.Laws
import Idealize.ShloMosaic.Lib.ValueIdx
import Idealize.ShloMosaic.Lib.Pipeline.Value
import proofs.«161237_j68573447848370_2_alg».proof.Proof.LibBlockReads
import proofs.«161237_j68573447848370_2_alg».proof.Proof.LibMatProd
import proofs.«161237_j68573447848370_2_alg».proof.Proof.LibBiasRelu
import proofs.«161237_j68573447848370_2_alg».proof.Proof.LibDenseLayers

open scoped BigOperators

noncomputable section

namespace Cert.Lib.InPlaceBodies

open Idealize.ShloMosaic Idealize.ShloMosaic.ValueIdx Cert.Lib.MatProd Cert.Lib.BiasRelu Cert.Layers

variable {r r' k n : Nat}

/-- Two blocks narrowed to a shorter float format, multiplied into a zero accumulator: the matrix product of the
    blocks themselves, since narrowing does nothing to an extended real. -/
theorem narrowed_product {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (x0 : FVec Ideal ⟨2, ![r, k]⟩ φ) (x1 : FVec Ideal ⟨2, ![k, n]⟩ φ) :
    matmul d prec (truncf ψ x0 h) (truncf ψ x1 h) (constant ⟨2, ![r, n]⟩ .f32 0x00000000#32) = matProd x0 x1 :=
  matmul_zero_eq_matProd d hlc hrc hln hrn hlb hrb prec (truncf ψ x0 h) (truncf ψ x1 h)

/-- The same when the left block is first re-shaped to its own shape. -/
theorem narrowed_product_cast {ψ φ : FTy} (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : ψ.bits < φ.bits)
    (hc : (⟨2, ![r, k]⟩ : Shape).ShapeCasts ⟨2, ![r, k]⟩)
    (x0 : FVec Ideal ⟨2, ![r, k]⟩ φ) (x1 : FVec Ideal ⟨2, ![k, n]⟩ φ) :
    matmul d prec (truncf ψ (shapeCast ⟨2, ![r, k]⟩ x0 hc) h) (truncf ψ x1 h) (constant ⟨2, ![r, n]⟩ .f32 0x00000000#32)
      = matProd x0 x1 := by
  rw [shapeCast_self]
  exact narrowed_product d hlc hrc hln hrn hlb hrb prec h x0 x1

/-- A 1×n row re-shaped in place and broadcast down the rows of an r×n block, itself re-shaped in place, then added:
    the bias row added to every row. -/
theorem bias_in_place (x0 : FVec Ideal ⟨2, ![r, n]⟩ .f32) (x2 : FVec Ideal ⟨2, ![1, n]⟩ .f32)
    (h0 : (⟨2, ![r, n]⟩ : Shape).ShapeCasts ⟨2, ![r, n]⟩) (h2 : (⟨2, ![1, n]⟩ : Shape).ShapeCasts ⟨2, ![1, n]⟩)
    (hb : (⟨2, ![1, n]⟩ : Shape).Broadcasts ⟨2, ![r, n]⟩) :
    addf (shapeCast ⟨2, ![r, n]⟩ x0 h0) (broadcastTo ⟨2, ![r, n]⟩ (shapeCast ⟨2, ![1, n]⟩ x2 h2) hb) = biasAdd x0 x2 := by
  funext i
  obtain ⟨p, q, rfl⟩ : ∃ (p : Fin r) (q : Fin n), i = ix2 p q := ⟨i 0, i 1, eq_ix2 i⟩
  rw [addf_apply, shapeCast_self, shapeCast_self, Cert.Lib.BlockReads.broadcast_row_apply]
  rfl

/-- Entry y of a biased block is entry i of the biased matrix when entry y of the block is entry i of the matrix and
    the two indices are in the same column. -/
theorem biasAdd_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasAdd X' b y = biasAdd X b i := by
  have e : (⟨(y 1).val, idx2_lt1 y⟩ : Fin n) = ⟨(i 1).val, idx2_lt1 i⟩ := Fin.ext hcol
  show X' y + b (ix2 (0 : Fin 1) (⟨(y 1).val, idx2_lt1 y⟩ : Fin n)) = X i + b (ix2 (0 : Fin 1) (⟨(i 1).val, idx2_lt1 i⟩ : Fin n))
  rw [h, e]

/-- The same for a biased block clamped below at the zero word. -/
theorem biasRelu_at (X : (⟨2, ![r, n]⟩ : Shape).Idx → EReal) (X' : (⟨2, ![r', n]⟩ : Shape).Idx → EReal)
    (b : (⟨2, ![1, n]⟩ : Shape).Idx → EReal) (y : (⟨2, ![r', n]⟩ : Shape).Idx) (i : (⟨2, ![r, n]⟩ : Shape).Idx)
    (h : X' y = X i) (hcol : (y 1).val = (i 1).val) : biasRelu X' b y = biasRelu X b i := by
  have e : (⟨(y 1).val, idx2_lt1 y⟩ : Fin n) = ⟨(i 1).val, idx2_lt1 i⟩ := Fin.ext hcol
  show max (X' y + b (ix2 (0 : Fin 1) (⟨(y 1).val, idx2_lt1 y⟩ : Fin n))) (Ideal.ofBits .f32 0x00000000#32)
     = max (X i + b (ix2 (0 : Fin 1) (⟨(i 1).val, idx2_lt1 i⟩ : Fin n))) (Ideal.ofBits .f32 0x00000000#32)
  rw [h, e]

end Cert.Lib.InPlaceBodies

end
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«161237_j68573447848370_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.LibLogSoftmaxRows.lean ====
/-
  The logarithm of the softmax along each row of an a×b array, on the extended reals.

  For a row p write top(p) for its largest entry joined with −∞, and lse(p) for the logarithm of the sum over k of
  e^(x(p, k) − top(p)). The reference groups the result as (x(p, q) − top(p)) − lse(p); a kernel body may group it as
  x(p, q) − (top(p) + lse(p)). The two agree whenever top(p) is a real — subtracting a sum is subtracting its terms
  one after the other as long as the first term is not an infinity — and top(p) is a real as soon as the row is not
  empty and holds reals. Both spellings are read here once at an index (the kernel body's: lane maximum with a −∞
  accumulator, re-shaped [a]→[a,1], broadcast, subtract, exponential, lane sum, logarithm, add, broadcast, subtract;
  the reference's: max-reduce from −∞ joined with a −∞ splat, two broadcasts, subtract, exponential, sum-reduce from
  zero, broadcast, logarithm, broadcast, subtract), and an entry of the result depends on one row only.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«161237_j68573447848370_2_alg».proof.Proof.LibIdealSums
import proofs.«161237_j68573447848370_2_alg».proof.Proof.LibRowReductions
import proofs.«161237_j68573447848370_2_alg».proof.Proof.LibRowVector
import proofs.«161237_j68573447848370_2_alg».proof.Proof.LibHostRows

open scoped BigOperators

noncomputable section

namespace Cert.Lib.LogSoftmaxRows

open Idealize.ShloMosaic Idealize.ShloMosaic.ValueIdx Cert.Lib.IdealSums Cert.Lib.RowReductions

variable {a a' b : Nat}

/-- The largest entry of row p, joined with −∞. -/
def rowTop (x : (⟨2, ![a, b]⟩ : Shape).Idx → EReal) (p : Fin a) : EReal :=
  (Finset.univ : Finset (Fin b)).fold max ⊥ (fun k => x (ix2 p k))

/-- The logarithm of the sum of the exponentials of row p's entries, each less the row's top. -/
def rowLogSum (x : (⟨2, ![a, b]⟩ : Shape).Idx → EReal) (p : Fin a) : EReal :=
  Ideal.log (∑ k : Fin b, Ideal.exp (x (ix2 p k) - rowTop x p))

/-- The logarithm of the softmax along each row, grouped as the reference does: (x − top) − lse. -/
def logSoftmax (x : (⟨2, ![a, b]⟩ : Shape).Idx → EReal) : (⟨2, ![a, b]⟩ : Shape).Idx → EReal :=
  fun i => (x i - rowTop x ⟨(i 0).val, idx2_lt0 i⟩) - rowLogSum x ⟨(i 0).val, idx2_lt0 i⟩

/-- The same grouped as x − (top + lse). -/
def logSoftmaxK (x : (⟨2, ![a, b]⟩ : Shape).Idx → EReal) : (⟨2, ![a, b]⟩ : Shape).Idx → EReal :=
  fun i => x i - (rowTop x ⟨(i 0).val, idx2_lt0 i⟩ + rowLogSum x ⟨(i 0).val, idx2_lt0 i⟩)

theorem logSoftmax_apply (x : (⟨2, ![a, b]⟩ : Shape).Idx → EReal) (p : Fin a) (q : Fin b) :
    logSoftmax x (ix2 p q) = (x (ix2 p q) - rowTop x p) - rowLogSum x p := rfl

theorem logSoftmaxK_apply (x : (⟨2, ![a, b]⟩ : Shape).Idx → EReal) (p : Fin a) (q : Fin b) :
    logSoftmaxK x (ix2 p q) = x (ix2 p q) - (rowTop x p + rowLogSum x p) := rfl

/-! ## The two groupings agree over reals -/

/-- Subtracting a sum whose first term is a real is subtracting its terms one after the other. -/
theorem sub_add_of_isReal (x m l : EReal) (hm : IsReal m) : x - (m + l) = (x - m) - l := by
  obtain ⟨r, rfl⟩ := hm
  rw [sub_eq_add_neg, sub_eq_add_neg, sub_eq_add_neg,
    EReal.neg_add (Or.inl (EReal.coe_ne_bot r)) (Or.inl (EReal.coe_ne_top r)), sub_eq_add_neg, add_assoc]

/-- The top of a row of reals that is not empty is a real: it is below +∞ since every entry is, and above −∞ since
    some entry is. -/
theorem rowTop_isReal (x : (⟨2, ![a, b]⟩ : Shape).Idx → EReal) (p : Fin a) (hb : 0 < b)
    (h : ∀ k : Fin b, IsReal (x (ix2 p k))) : IsReal (rowTop x p) := by
  refine isReal_iff.2 ⟨ne_of_lt ?_, ne_of_gt ?_⟩
  · exact (Finset.fold_max_lt (c := (⊤ : EReal))).2 ⟨bot_lt_top, fun k _ => lt_top_iff_ne_top.2 (h k).ne_top⟩
  · exact (Finset.lt_fold_max (c := (⊥ : EReal))).2 (Or.inr ⟨⟨0, hb⟩, Finset.mem_univ _, bot_lt_iff_ne_bot.2 (h _).ne_bot⟩)

/-- Over an array of reals with rows that are not empty the two groupings are one function. -/
theorem logSoftmaxK_eq (x : (⟨2, ![a, b]⟩ : Shape).Idx → EReal) (hb : 0 < b) (h : ∀ i, IsReal (x i)) :
    logSoftmaxK x = logSoftmax x := by
  funext i
  obtain ⟨p, q, rfl⟩ : ∃ (p : Fin a) (q : Fin b), i = ix2 p q := ⟨i 0, i 1, eq_ix2 i⟩
  rw [logSoftmaxK_apply, logSoftmax_apply]
  exact sub_add_of_isReal _ _ _ (rowTop_isReal x p hb fun k => h _)

/-! ## An entry depends on one row -/

theorem rowTop_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowTop x' p' = rowTop x p := by
  unfold rowTop
  exact congrArg (fun f => Finset.fold max ⊥ f (Finset.univ : Finset (Fin b))) (funext h)

theorem rowLogSum_congr (x : (⟨2, ![a, b]⟩ : Shape).Idx → EReal) (x' : (⟨2, ![a', b]⟩ : Shape).Idx → EReal)
    (p' : Fin a') (p : Fin a) (h : ∀ k : Fin b, x' (ix2 p' k) = x (ix2 p k)) : rowLogSum x' p' = rowLogSum x p := by
  unfold rowLogSum
  rw [rowTop_congr x x' p' p h]
  exact congrArg Ideal.log (Finset.sum_congr rfl fun k _ => by rw [h k])

/-- If row (y 0) of x' is row (i 0) of x and y, i have the same column, the result of x' at y is that of x at i. -/
theorem logSoftmaxK_rows (x : (⟨2, ![a, b]⟩ : Shape).Idx → EReal) (x' : (⟨2, ![a', b]⟩ : Shape).Idx → EReal)
    (y : (⟨2, ![a', b]⟩ : Shape).Idx) (i : (⟨2, ![a, b]⟩ : Shape).Idx)
    (h : ∀ k : Fin b, x' (ix2 (⟨(y 0).val, idx2_lt0 y⟩ : Fin a') k) = x (ix2 (⟨(i 0).val, idx2_lt0 i⟩ : Fin a) k))
    (hcol : (y 1).val = (i 1).val) : logSoftmaxK x' y = logSoftmaxK x i := by
  obtain ⟨p', q', rfl⟩ : ∃ (p' : Fin a') (q' : Fin b), y = ix2 p' q' := ⟨y 0, y 1, eq_ix2 y⟩
  obtain ⟨p, q, rfl⟩ : ∃ (p : Fin a) (q : Fin b), i = ix2 p q := ⟨i 0, i 1, eq_ix2 i⟩
  have hq : q' = q := Fin.ext hcol
  subst hq
  rw [logSoftmaxK_apply, logSoftmaxK_apply, rowTop_congr x x' p' p h, rowLogSum_congr x x' p' p h]
  exact congrArg (· - _) (h q')

/-! ## The kernel body's spelling -/

/-- Lane maximum into a −∞ accumulator, re-shaped to a column, broadcast and subtracted; exponential; lane sum into a
    zero accumulator, re-shaped to a column; logarithm; the two columns added, broadcast and subtracted from the
    block: `logSoftmaxK` of the block. -/
theorem body_eq (x : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec (FTy.bits .f32)) = FKind.maximumf.neutral .f32 hφ)
    (hadd : (0x00000000#32 : BitVec (FTy.bits .f32)) = FKind.add.neutral .f32 hφ) :
    subf x (broadcastTo ⟨2, ![a, b]⟩
      (addf (shapeCast ⟨2, ![a, 1]⟩ (multiReduction .maximumf [1] ⟨1, ![a]⟩ x 0xFF800000#32 hr hφ hmax) hc)
        (log (shapeCast ⟨2, ![a, 1]⟩ (multiReduction .add [1] ⟨1, ![a]⟩
          (exp (subf x (broadcastTo ⟨2, ![a, b]⟩
            (shapeCast ⟨2, ![a, 1]⟩ (multiReduction .maximumf [1] ⟨1, ![a]⟩ x 0xFF800000#32 hr hφ hmax) hc) hb)))
          0x00000000#32 hr hφ hadd) hc))) hb)
      = logSoftmaxK x := by
  have top : ∀ p : Fin a,
      shapeCast ⟨2, ![a, 1]⟩ (multiReduction .maximumf [1] ⟨1, ![a]⟩ x 0xFF800000#32 hr hφ hmax) hc (ix2 p 0) = rowTop x p := by
    intro p
    rw [shapeCast_col_apply, rowmax_apply]
    show Finset.fold max (Ideal.ofBits .f32 0xFF800000#32) _ _ = _
    rw [ofBits_neg_inf_f32]
    rfl
  funext i
  obtain ⟨p, q, rfl⟩ : ∃ (p : Fin a) (q : Fin b), i = ix2 p q := ⟨i 0, i 1, eq_ix2 i⟩
  rw [subf_apply, broadcast_col_apply, addf_apply, top, logSoftmaxK_apply]
  refine congrArg (fun z => x (ix2 p q) - (rowTop x p + z)) ?_
  show Ideal.log (shapeCast ⟨2, ![a, 1]⟩ _ hc (ix2 p 0)) = _
  rw [shapeCast_col_apply, rowsum_apply]
  refine congrArg Ideal.log (Finset.sum_congr rfl fun k _ => ?_)
  show Ideal.exp (x (ix2 p k) - broadcastTo ⟨2, ![a, b]⟩ _ hb (ix2 p k)) = _
  rw [broadcast_col_apply, top]

/-! ## The reference's spelling -/

/-- Max-reduce along each row from −∞, joined with a −∞ splat, broadcast [n]→[n,1]→[n,c] and subtracted; exponential;
    sum-reduce from zero, broadcast [n]→[n,1]; logarithm; broadcast to [n,c] and subtracted: `logSoftmax`. -/
theorem host_eq {n c : Nat} (L : FVec Ideal ⟨2, ![n, c]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, c]⟩ ![0, 1])
    (hr : (⟨2, ![n, c]⟩ : Shape).ReducesTo [1] ⟨1, ![n]⟩) (hu : 0 < (⟨0, ![]⟩ : Shape).numel) :
    subf (subf L (broadcastInDim ⟨2, ![n, c]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf L (constant (F := Ideal) ⟨0, ![]⟩ .f32 0xFF800000#32) hr hu)))))
      (broadcastInDim ⟨2, ![n, c]⟩ ![0, 1] h2 (Host.log (broadcastInDim ⟨2, ![n, 1]⟩ ![0] h1
        (Host.reduceAdd (Host.exp (subf L (broadcastInDim ⟨2, ![n, c]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf L (constant (F := Ideal) ⟨0, ![]⟩ .f32 0xFF800000#32) hr hu))))))
          (constant (F := Ideal) ⟨0, ![]⟩ .f32 0x00000000#32) hr hu))))
      = logSoftmax L := by
  have top : ∀ p : Fin n,
      maximumf (broadcastInDim ⟨1, ![n]⟩ ![] h0 (constant (F := Ideal) ⟨0, ![]⟩ .f32 0xFF800000#32))
        (Host.reduce FloatOps.maximumf L (constant (F := Ideal) ⟨0, ![]⟩ .f32 0xFF800000#32) hr hu) (ix1 p) = rowTop L p := by
    intro p
    rw [maximumf_apply, Cert.Lib.RowVector.bcastInDim_scalar_apply, host_rowmax_apply]
    show max (Ideal.ofBits .f32 0xFF800000#32) (Finset.fold max (Ideal.ofBits .f32 0xFF800000#32) _ _) = _
    rw [ofBits_neg_inf_f32, fold_max_bot]
    rfl
  funext i
  obtain ⟨p, q, rfl⟩ : ∃ (p : Fin n) (q : Fin c), i = ix2 p q := ⟨i 0, i 1, eq_ix2 i⟩
  rw [subf_apply, subf_apply, bcastInDim_cols_apply, bcastInDim_col_apply, top, bcastInDim_cols_apply, logSoftmax_apply]
  refine congrArg (fun z => (L (ix2 p q) - rowTop L p) - z) ?_
  show Ideal.log _ = _
  rw [bcastInDim_col_apply, Cert.Lib.HostRows.host_rowsum_apply]
  show Ideal.log (Ideal.ofBits .f32 0x00000000#32 + _) = _
  rw [Ideal.ofBits_zero_f32, zero_add]
  refine congrArg Ideal.log (Finset.sum_congr rfl fun k _ => ?_)
  show Ideal.exp (L (ix2 p k) - _) = _
  rw [bcastInDim_cols_apply, bcastInDim_col_apply, top]

end Cert.Lib.LogSoftmaxRows

end
-- ==== Proof.LibGraphConv.lean ====
/-
  Graph-convolution layers on the extended reals: a propagation matrix A applied to a feature matrix H and a weight
  matrix W. A kernel may group the two products as (A·H)·W where the reference groups them as A·(H·W). Moving a factor
  into a sum is not a law of the extended reals (an infinity of each sign spoils it), but it is one over reals, so over
  arrays of reals the product of matrices is associative; and sums, products, bias additions and maxima with the zero
  word of reals are reals, so the property passes from layer to layer. An entry of a layer's result depends on one row
  of A, so a layer applied to a block of rows of A gives the same rows of the layer applied to A (`layer_at`,
  `proj_at`, `logSoftmax_layer_at`: the index inside the block and the index of the whole array as variables, the
  other operands equal by hypothesis). Nothing here mentions a program.
-/
import Mathlib.Algebra.BigOperators.Fin
import Mathlib.Data.EReal.Inv
import Idealize.ShloMosaic.PureOps.Ideal.Laws
import Idealize.ShloMosaic.Lib.ValueIdx
import proofs.«161237_j68573447848370_2_alg».proof.Proof.LibIdealSums
import proofs.«161237_j68573447848370_2_alg».proof.Proof.LibRealSums
import proofs.«161237_j68573447848370_2_alg».proof.Proof.LibMatProd
import proofs.«161237_j68573447848370_2_alg».proof.Proof.LibBiasRelu
import proofs.«161237_j68573447848370_2_alg».proof.Proof.LibDenseLayers
import proofs.«161237_j68573447848370_2_alg».proof.Proof.LibBlockReads
import proofs.«161237_j68573447848370_2_alg».proof.Proof.LibRowBlocks
import proofs.«161237_j68573447848370_2_alg».proof.Proof.LibInPlaceBodies
import proofs.«161237_j68573447848370_2_alg».proof.Proof.LibLogSoftmaxRows

open scoped BigOperators

noncomputable section

namespace Cert.Lib.GraphConv

open Idealize.ShloMosaic Idealize.ShloMosaic.ValueIdx Cert.Lib.IdealSums Cert.Lib.RealSums Cert.Lib.MatProd
  Cert.Lib.BiasRelu Cert.Layers

variable {m k n l : Nat}

/-- A real factor moves inside a finite sum of reals: c · Σ f = Σ c · f. -/
theorem mul_sum_of_isReal {ι : Type*} (s : Finset ι) (c : EReal) (f : ι → EReal) (hc : IsReal c)
    (hf : ∀ i ∈ s, IsReal (f i)) : c * ∑ i ∈ s, f i = ∑ i ∈ s, c * f i := by
  have h := sum_mul_of_isReal s f (fun _ => 1) c hf (fun _ _ => isReal_one) hc
  simp only [mul_one, one_mul] at h
  rw [mul_comm, h]
  exact Finset.sum_congr rfl fun i _ => mul_comm _ _

/-- Every entry of a product of two matrices of reals is a real. -/
theorem isReal_matProd (A : (⟨2, ![m, k]⟩ : Shape).Idx → EReal) (B : (⟨2, ![k, n]⟩ : Shape).Idx → EReal)
    (hA : ∀ i, IsReal (A i)) (hB : ∀ i, IsReal (B i)) (i : (⟨2, ![m, n]⟩ : Shape).Idx) : IsReal (matProd A B i) := by
  unfold matProd
  exact IsReal.sum _ fun c _ => (hA _).mul (hB _)

/-- The zero word is a real. -/
theorem isReal_zero_word : IsReal (Ideal.ofBits .f32 0x00000000#32) := by
  rw [Ideal.ofBits_zero_f32]; exact isReal_zero

/-- A bias row of reals added to a matrix of reals, clamped or not, has real entries. -/
theorem isReal_biasRelu (X : (⟨2, ![m, n]⟩ : Shape).Idx → EReal) (b : (⟨2, ![1, n]⟩ : Shape).Idx → EReal)
    (hX : ∀ i, IsReal (X i)) (hb : ∀ i, IsReal (b i)) (i : (⟨2, ![m, n]⟩ : Shape).Idx) : IsReal (biasRelu X b i) := by
  unfold biasRelu
  exact isReal_max ((hX i).add (hb _)) isReal_zero_word

theorem isReal_biasAdd (X : (⟨2, ![m, n]⟩ : Shape).Idx → EReal) (b : (⟨2, ![1, n]⟩ : Shape).Idx → EReal)
    (hX : ∀ i, IsReal (X i)) (hb : ∀ i, IsReal (b i)) (i : (⟨2, ![m, n]⟩ : Shape).Idx) : IsReal (biasAdd X b i) := by
  unfold biasAdd
  exact (hX i).add (hb _)

/-- A vector of reals as a row has real entries. -/
theorem isReal_asRow (v : (⟨1, ![n]⟩ : Shape).Idx → EReal) (hv : ∀ i, IsReal (v i)) (i : (⟨2, ![1, n]⟩ : Shape).Idx) :
    IsReal (Cert.Lib.RowVector.asRow v i) := hv _

/-- Over matrices of reals the product is associative: entry (p, q) of either grouping is the double sum over
    (d, c) of A(p, d) · H(d, c) · W(c, q), each factor moved into or out of the inner sum and the two sums exchanged. -/
theorem matProd_assoc (A : (⟨2, ![m, k]⟩ : Shape).Idx → EReal) (H : (⟨2, ![k, n]⟩ : Shape).Idx → EReal)
    (W : (⟨2, ![n, l]⟩ : Shape).Idx → EReal) (hA : ∀ i, IsReal (A i)) (hH : ∀ i, IsReal (H i)) (hW : ∀ i, IsReal (W i)) :
    matProd (matProd A H) W = matProd A (matProd H W) := by
  funext i
  obtain ⟨p, q, rfl⟩ : ∃ (p : Fin m) (q : Fin l), i = ix2 p q := ⟨i 0, i 1, eq_ix2 i⟩
  rw [matProd_apply, matProd_apply]
  calc ∑ c : Fin n, matProd A H (ix2 p c) * W (ix2 c q)
      = ∑ c : Fin n, ∑ d : Fin k, A (ix2 p d) * (H (ix2 d c) * W (ix2 c q)) :=
        Finset.sum_congr rfl fun c _ => by
          rw [matProd_apply]
          exact sum_mul_of_isReal _ _ _ _ (fun d _ => hA _) (fun d _ => hH _) (hW _)
    _ = ∑ d : Fin k, ∑ c : Fin n, A (ix2 p d) * (H (ix2 d c) * W (ix2 c q)) := Finset.sum_comm
    _ = ∑ d : Fin k, A (ix2 p d) * matProd H W (ix2 d q) :=
        Finset.sum_congr rfl fun d _ => by
          rw [matProd_apply]
          exact (mul_sum_of_isReal _ _ _ (hA _) fun c _ => (hH _).mul (hW _)).symm

/-! ## A loaded 1×n bias row beside an r×n block -/

/-- A 1×n row broadcast down the rows of an r×n block and added: the bias row added to every row. -/
theorem bias_row (M : FVec Ideal ⟨2, ![m, n]⟩ .f32) (row : FVec Ideal ⟨2, ![1, n]⟩ .f32)
    (hb : (⟨2, ![1, n]⟩ : Shape).Broadcasts ⟨2, ![m, n]⟩) :
    addf M (broadcastTo ⟨2, ![m, n]⟩ row hb) = biasAdd M row := by
  funext i
  obtain ⟨p, q, rfl⟩ : ∃ (p : Fin m) (q : Fin n), i = ix2 p q := ⟨i 0, i 1, eq_ix2 i⟩
  rw [addf_apply, Cert.Lib.BlockReads.broadcast_row_apply]
  rfl

/-- The same followed by the maximum with a splat of the zero word. -/
theorem bias_max_row (M : FVec Ideal ⟨2, ![m, n]⟩ .f32) (row : FVec Ideal ⟨2, ![1, n]⟩ .f32)
    (hb : (⟨2, ![1, n]⟩ : Shape).Broadcasts ⟨2, ![m, n]⟩) :
    maximumf (addf M (broadcastTo ⟨2, ![m, n]⟩ row hb))
      (broadcast ⟨2, ![m, n]⟩ (Scalar.ofBits (F := Ideal) .f32 0x00000000#32)) = biasRelu M row := by
  funext i
  obtain ⟨p, q, rfl⟩ : ∃ (p : Fin m) (q : Fin n), i = ix2 p q := ⟨i 0, i 1, eq_ix2 i⟩
  rw [maximumf_apply, addf_apply, Cert.Lib.BlockReads.broadcast_row_apply]
  rfl

/-! ## A block of rows of the propagation matrix gives the same rows of a layer -/

/-- max((A'·H')·W' + b', 0) at y is max((A·H)·W + b, 0) at i, when row (y 0) of A' is row (i 0) of A, the other
    operands are equal and y, i have the same column. -/
theorem layer_at {m' : Nat} (A : (⟨2, ![m, k]⟩ : Shape).Idx → EReal) (A' : (⟨2, ![m', k]⟩ : Shape).Idx → EReal)
    (H H' : (⟨2, ![k, n]⟩ : Shape).Idx → EReal) (W W' : (⟨2, ![n, l]⟩ : Shape).Idx → EReal)
    (b b' : (⟨2, ![1, l]⟩ : Shape).Idx → EReal) (y : (⟨2, ![m', l]⟩ : Shape).Idx) (i : (⟨2, ![m, l]⟩ : Shape).Idx)
    (hA : ∀ c : Fin k, A' (ix2 (⟨(y 0).val, idx2_lt0 y⟩ : Fin m') c) = A (ix2 (⟨(i 0).val, idx2_lt0 i⟩ : Fin m) c))
    (hH : H' = H) (hW : W' = W) (hb : b' = b) (hcol : (y 1).val = (i 1).val) :
    biasRelu (matProd (matProd A' H') W') b' y = biasRelu (matProd (matProd A H) W) b i := by
  subst hH hW hb
  refine Cert.Lib.InPlaceBodies.biasRelu_at _ _ _ y i (Cert.Lib.RowBlocks.matProd_rows _ _ _ y i (fun c => ?_) hcol) hcol
  exact matProd_block A A' H' H' _ c _ c hA fun _ => rfl

/-- The same layer followed by a projection: (max((A'·H')·W' + b', 0))·P' at y is the whole array's at i. -/
theorem proj_at {m' o : Nat} (A : (⟨2, ![m, k]⟩ : Shape).Idx → EReal) (A' : (⟨2, ![m', k]⟩ : Shape).Idx → EReal)
    (H H' : (⟨2, ![k, n]⟩ : Shape).Idx → EReal) (W W' : (⟨2, ![n, l]⟩ : Shape).Idx → EReal)
    (b b' : (⟨2, ![1, l]⟩ : Shape).Idx → EReal) (P P' : (⟨2, ![l, o]⟩ : Shape).Idx → EReal)
    (y : (⟨2, ![m', o]⟩ : Shape).Idx) (i : (⟨2, ![m, o]⟩ : Shape).Idx)
    (hA : ∀ c : Fin k, A' (ix2 (⟨(y 0).val, idx2_lt0 y⟩ : Fin m') c) = A (ix2 (⟨(i 0).val, idx2_lt0 i⟩ : Fin m) c))
    (hH : H' = H) (hW : W' = W) (hb : b' = b) (hP : P' = P) (hcol : (y 1).val = (i 1).val) :
    matProd (biasRelu (matProd (matProd A' H') W') b') P' y = matProd (biasRelu (matProd (matProd A H) W) b) P i := by
  subst hP
  refine Cert.Lib.RowBlocks.matProd_rows _ _ _ y i (fun c => ?_) hcol
  exact layer_at A A' H H' W W' b b' (ix2 _ c) (ix2 _ c) hA hH hW hb rfl

/-- The logarithm of the softmax of A'·Z' + b' along each row at y is the whole array's at i. -/
theorem logSoftmax_layer_at {m' : Nat} (A : (⟨2, ![m, k]⟩ : Shape).Idx → EReal) (A' : (⟨2, ![m', k]⟩ : Shape).Idx → EReal)
    (Z Z' : (⟨2, ![k, n]⟩ : Shape).Idx → EReal) (b b' : (⟨2, ![1, n]⟩ : Shape).Idx → EReal)
    (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hZ : Z' = Z) (hb : b' = b) (hcol : (y 1).val = (i 1).val) :
    Cert.Lib.LogSoftmaxRows.logSoftmaxK (biasAdd (matProd A' Z') b') y
      = Cert.Lib.LogSoftmaxRows.logSoftmaxK (biasAdd (matProd A Z) b) i := by
  subst hZ hb
  refine Cert.Lib.LogSoftmaxRows.logSoftmaxK_rows _ _ y i (fun q => ?_) hcol
  exact Cert.Lib.InPlaceBodies.biasAdd_at _ _ _ (ix2 _ q) (ix2 _ q)
    (Cert.Lib.RowBlocks.matProd_rows A A' Z' (ix2 _ q) (ix2 _ q) hA rfl) rfl

end Cert.Lib.GraphConv

end
-- ==== Proof.PairScores.lean ====
/-
  Pairwise attention scores on the extended reals.

  A feature matrix H (8192×512) meets a weight matrix W (1024×256), read as its upper and its lower 512 rows, and a
  column a (256×1). Every row p of H gets a left score (H·W_upper·a)(p) and a right score (H·W_lower·a)(p). Entry
  (p, q) of the result is the leaky rectifier of left(p) + right(q) when p ≠ q, and zero on the diagonal.

  The two products may be grouped as (H·W)·a or as H·(W·a). Over matrices of reals the groupings agree (a product of
  matrices of reals is associative), so the two score arrays agree when every entry of H, W and a is a real. The
  rectifier may test `0 < s` or `0 ≤ s`: at s = 0 both branches give zero, so the two tests define one function on
  all extended reals. Nothing here mentions a program.
-/
import Idealize.ShloMosaic.PureOps.Ideal
import Idealize.ShloMosaic.Lib.ValueIdx
import proofs.«161237_j68573447848370_2_alg».proof.Proof.LibMatProd
import proofs.«161237_j68573447848370_2_alg».proof.Proof.LibGraphConv

open scoped BigOperators

noncomputable section

namespace Cert.PairScores

open Idealize.ShloMosaic Idealize.ShloMosaic.ValueIdx Cert.Lib.MatProd Cert.Lib.IdealSums

/-- The rectifier's slope on the negative side: the value of the 32-bit word 0x3E4CCCCD. -/
def slope : EReal := Ideal.ofBits .f32 0x3E4CCCCD#32

/-- The leaky rectifier: a positive value passes, any other is scaled by the slope. -/
def leaky (s : EReal) : EReal := if 0 < s then s else slope * s

/-- Testing `0 ≤ s` instead of `0 < s` gives the same function: the tests differ only at zero, where the scaled
    branch is `slope · 0 = 0`, the value itself. -/
theorem leaky_eq_of_le (s : EReal) : (if 0 ≤ s then s else slope * s) = leaky s := by
  unfold leaky
  by_cases h : 0 < s
  · rw [if_pos h, if_pos h.le]
  · rw [if_neg h]
    by_cases h0 : 0 ≤ s
    · have : s = 0 := le_antisymm (not_lt.mp h) h0
      subst this
      rw [if_pos le_rfl, mul_zero]
    · rw [if_neg h0]

/-- The upper 512 rows of a 1024×256 matrix. -/
def upper (W : (⟨2, ![1024, 256]⟩ : Shape).Idx → EReal) : (⟨2, ![512, 256]⟩ : Shape).Idx → EReal :=
  fun i => W (ix2 (⟨(i 0).val, by have := idx2_lt0 i; omega⟩ : Fin 1024) (⟨(i 1).val, idx2_lt1 i⟩ : Fin 256))

/-- The lower 512 rows of a 1024×256 matrix. -/
def lower (W : (⟨2, ![1024, 256]⟩ : Shape).Idx → EReal) : (⟨2, ![512, 256]⟩ : Shape).Idx → EReal :=
  fun i => W (ix2 (⟨512 + (i 0).val, by have := idx2_lt0 i; omega⟩ : Fin 1024) (⟨(i 1).val, idx2_lt1 i⟩ : Fin 256))

theorem upper_apply (W : (⟨2, ![1024, 256]⟩ : Shape).Idx → EReal) (r : Fin 512) (o : Fin 256) :
    upper W (ix2 r o) = W (ix2 (⟨r.val, by omega⟩ : Fin 1024) o) := rfl
theorem lower_apply (W : (⟨2, ![1024, 256]⟩ : Shape).Idx → EReal) (r : Fin 512) (o : Fin 256) :
    lower W (ix2 r o) = W (ix2 (⟨512 + r.val, by omega⟩ : Fin 1024) o) := rfl

/-- The score array of a column of left scores and a column of right scores: zero on the diagonal, the rectified sum
    left(p) + right(q) off it. -/
def pairScores (left right : (⟨2, ![8192, 1]⟩ : Shape).Idx → EReal) : (⟨2, ![8192, 8192]⟩ : Shape).Idx → EReal :=
  fun i => if (i 0).val = (i 1).val then 0
    else leaky (left (ix2 (⟨(i 0).val, idx2_lt0 i⟩ : Fin 8192) (0 : Fin 1))
      + right (ix2 (⟨(i 1).val, idx2_lt1 i⟩ : Fin 8192) (0 : Fin 1)))

theorem pairScores_apply (left right : (⟨2, ![8192, 1]⟩ : Shape).Idx → EReal) (p q : Fin 8192) :
    pairScores left right (ix2 p q)
      = if p.val = q.val then 0 else leaky (left (ix2 p (0 : Fin 1)) + right (ix2 q (0 : Fin 1))) := rfl

/-- The scores with each product grouped as (H·W)·a. -/
def scoresOuter (H : (⟨2, ![8192, 512]⟩ : Shape).Idx → EReal) (W : (⟨2, ![1024, 256]⟩ : Shape).Idx → EReal)
    (a : (⟨2, ![256, 1]⟩ : Shape).Idx → EReal) : (⟨2, ![8192, 8192]⟩ : Shape).Idx → EReal :=
  pairScores (matProd (matProd H (upper W)) a) (matProd (matProd H (lower W)) a)

/-- The scores with each product grouped as H·(W·a). -/
def scoresInner (H : (⟨2, ![8192, 512]⟩ : Shape).Idx → EReal) (W : (⟨2, ![1024, 256]⟩ : Shape).Idx → EReal)
    (a : (⟨2, ![256, 1]⟩ : Shape).Idx → EReal) : (⟨2, ![8192, 8192]⟩ : Shape).Idx → EReal :=
  pairScores (matProd H (matProd (upper W) a)) (matProd H (matProd (lower W) a))

/-- Over reals the two groupings give one score array. -/
theorem scoresInner_eq_scoresOuter (H : (⟨2, ![8192, 512]⟩ : Shape).Idx → EReal)
    (W : (⟨2, ![1024, 256]⟩ : Shape).Idx → EReal) (a : (⟨2, ![256, 1]⟩ : Shape).Idx → EReal)
    (hH : ∀ i, IsReal (H i)) (hW : ∀ i, IsReal (W i)) (ha : ∀ i, IsReal (a i)) :
    scoresInner H W a = scoresOuter H W a := by
  unfold scoresInner scoresOuter
  rw [Cert.Lib.GraphConv.matProd_assoc H (upper W) a hH (fun i => hW _) ha,
    Cert.Lib.GraphConv.matProd_assoc H (lower W) a hH (fun i => hW _) ha]

end Cert.PairScores

end
-- ==== Proof.ScoreBlocks.lean ====
/-
  The score array the idealized kernel program ends with, as one function of the column of left scores and the row of
  right scores its pipeline is launched on.

  A block's entry (p, q) at grid point (i, j) is the entry (1024·i + p, 2048·j + q) of the array; the point reads rows
  1024·i … of the column and columns 2048·j … of the row. The rectified sum at that entry is the rectifier of
  left(1024·i + p) + right(2048·j + q). Where the block meets the diagonal the body zeroes the entries with
  1024·i + p = 2048·j + q (32-bit sums of numbers below 8192: no wrap); where it does not, no entry of the block is on
  the diagonal (the block's rows end before its columns begin, or its columns end before its rows begin), so storing
  the rectified sums unmasked is storing the masked ones. Hence every point writes back its block of ONE function of
  the array index, and the 8×4 blocks of 1024×2048 tile the 8192×8192 array.
-/
import proofs.«161237_j68573447848370_2_alg».proof.Proof.RunIdeal
import proofs.«161237_j68573447848370_2_alg».proof.Proof.PairScores
import proofs.«161237_j68573447848370_2_alg».proof.Proof.LibRowReductions
import proofs.«161237_j68573447848370_2_alg».proof.Proof.LibBlockReads
import Idealize.ShloMosaic.Lib.Pipeline.Value
import Idealize.ShloMosaic.Lib.ValueIdx

set_option maxRecDepth 16384

noncomputable section

namespace Cert.KernelIdeal.ScoreBlocks

open Cert.KernelIdeal Cert.KernelIdeal.Gen Cert.KernelIdeal.Body Cert.PairScores
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The array as a function of its index -/

/-- The scores of a column of left scores and a ROW of right scores: zero on the diagonal, the rectified sum
    left(p) + right(q) off it. -/
def rowScores (L : S8192x1.Idx → EReal) (R : S1x8192.Idx → EReal) : S8192x8192.Idx → EReal :=
  fun i => if (i 0).val = (i 1).val then 0
    else leaky (L (ix2 (⟨(i 0).val, idx2_lt0 i⟩ : Fin 8192) (0 : Fin 1))
      + R (ix2 (0 : Fin 1) (⟨(i 1).val, idx2_lt1 i⟩ : Fin 8192)))

/-! ## The body's two payloads at an entry of the block -/

/-- The rectifier as the body spells it: a select on `0 < s` between s and slope · s. -/
theorem select_leaky (s : EReal) :
    Scalar.select (Ideal.cmp .ogt s (Ideal.ofBits .f32 0x00000000#32)) s (Ideal.ofBits .f32 0x3E4CCCCD#32 * s) = leaky s := by
  rw [Ideal.ofBits_zero_f32]
  unfold leaky PairScores.slope Scalar.select Ideal.cmp
  by_cases h : (0 : EReal) < s <;> simp [h]

/-- The rectified sums at (p, q): the rectifier of the column's entry p plus the row's entry q. -/
theorem pay1_apply (x0 : Vec Ideal S1024x1 .f32) (x1 : Vec Ideal S1x2048 .f32) (p : Fin 1024) (q : Fin 2048) :
    k0_pay1 x0 x1 (ix2 p q) = leaky (x0 (ix2 p (0 : Fin 1)) + x1 (ix2 (0 : Fin 1) q)) := by
  have hL : broadcastTo S1024x2048 (shapeCast S1024x1 x0 Facts₀.shapeCasts_S1024x1_S1024x1)
      Facts₀.broadcasts_S1024x1_S1024x2048 (ix2 p q) = x0 (ix2 p (0 : Fin 1)) := by
    rw [shapeCast_self]; exact Cert.Lib.RowReductions.broadcast_col_apply x0 _ p q
  have hR : broadcastTo S1024x2048 (shapeCast S1x2048 x1 Facts₀.shapeCasts_S1x2048_S1x2048)
      Facts₀.broadcasts_S1x2048_S1024x2048 (ix2 p q) = x1 (ix2 (0 : Fin 1) q) := by
    rw [shapeCast_self]; exact Cert.Lib.BlockReads.broadcast_row_apply x1 _ p q
  unfold k0_pay1
  rw [select_apply, cmpf_apply, mulf_apply, addf_apply, broadcast_apply, broadcast_apply, hL, hR]
  exact select_leaky _

/-- The word of an equality test is the one-word exactly when the two words are equal. -/
theorem ofBool_beq_eq_one {w : Nat} (x y : BitVec w) : (BitVec.ofBool (x == y) = 1#1) ↔ x = y := by
  by_cases h : x = y
  · subst h; simp
  · have hb : (x == y) = false := by simpa using h
    rw [hb]
    exact ⟨fun e => absurd e (by decide), fun e => absurd e h⟩

/-- Two 32-bit sums of a block offset and a position inside the block are equal words exactly when they are equal
    numbers: nothing reaches 2^32. -/
theorem offset_words (a b p q : Nat) (ha : a < 8) (hb : b < 4) (hp : p < 1024) (hq : q < 2048) :
    (BitVec.ofNat 32 a * 1024#32 + BitVec.ofNat 32 p = BitVec.ofNat 32 b * 2048#32 + BitVec.ofNat 32 q)
      ↔ a * 1024 + p = b * 2048 + q := by
  have e1 : BitVec.ofNat 32 a * 1024#32 + BitVec.ofNat 32 p = BitVec.ofNat 32 (a * 1024 + p) := by
    rw [BitVec.ofNat_add, BitVec.ofNat_mul]
  have e2 : BitVec.ofNat 32 b * 2048#32 + BitVec.ofNat 32 q = BitVec.ofNat 32 (b * 2048 + q) := by
    rw [BitVec.ofNat_add, BitVec.ofNat_mul]
  rw [e1, e2]
  constructor
  · intro h
    have h' := congrArg BitVec.toNat h
    rw [BitVec.toNat_ofNat, BitVec.toNat_ofNat, Nat.mod_eq_of_lt (by omega), Nat.mod_eq_of_lt (by omega)] at h'
    exact h'
  · intro h; rw [h]

/-- The masked rectified sums at (p, q) of the block at grid point i: zero where the global row equals the global
    column, the rectified sum elsewhere. -/
theorem pay2_apply (i : grid0.Coords) (x0 : Vec Ideal S1024x1 .f32) (x1 : Vec Ideal S1x2048 .f32)
    (p : Fin 1024) (q : Fin 2048) (hi0 : (i 0).val < 8) (hi1 : (i 1).val < 4) :
    k0_pay2 i x0 x1 (ix2 p q)
      = if (i 0).val * 1024 + p.val = (i 1).val * 2048 + q.val then 0
        else leaky (x0 (ix2 p (0 : Fin 1)) + x1 (ix2 (0 : Fin 1) q)) := by
  have hL : broadcastTo S1024x2048 (addi (broadcast S1024x1 (Scalar.muli (BitVec.ofNat 32 (i 0).val) 1024#32))
        (iota .tc S1024x1 32 [0] Facts₀.iota_S1024x1_d0_w32)) Facts₀.broadcasts_S1024x1_S1024x2048 (ix2 p q)
      = BitVec.ofNat 32 (i 0).val * 1024#32 + BitVec.ofNat 32 p.val := by
    rw [Cert.Lib.RowReductions.broadcast_col_apply _ _ p q]
    show IntOp.addi _ (iota .tc S1024x1 32 [0] _ _) = _
    rw [iota_single_apply]
    rfl
  have hR : broadcastTo S1024x2048 (addi (broadcast S1x2048 (Scalar.muli (BitVec.ofNat 32 (i 1).val) 2048#32))
        (iota .tc S1x2048 32 [1] Facts₀.iota_S1x2048_d1_w32)) Facts₀.broadcasts_S1x2048_S1024x2048 (ix2 p q)
      = BitVec.ofNat 32 (i 1).val * 2048#32 + BitVec.ofNat 32 q.val := by
    rw [Cert.Lib.BlockReads.broadcast_row_apply _ _ p q]
    show IntOp.addi _ (iota .tc S1x2048 32 [1] _ _) = _
    rw [iota_single_apply]
    rfl
  unfold k0_pay2
  rw [select_apply, broadcast_apply, pay1_apply]
  show Scalar.select (IntOp.cmpi .eq _ _) _ _ = _
  rw [hL, hR]
  simp only [IntOp.cmpi, Scalar.select]
  refine (if_congr ((ofBool_beq_eq_one _ _).trans (offset_words _ _ _ _ hi0 hi1 p.isLt q.isLt)) rfl rfl).trans ?_
  exact if_congr Iff.rfl Ideal.ofBits_zero_f32 rfl

/-! ## One block entry against the array's function -/

/-- What the body leaves at entry y of the block at grid point i is the array's function at the entry k it lands on,
    when the point's coordinates are (a, b), the two input blocks are rows 1024·a … of the column and columns
    2048·b … of the row, k = (1024·a + y₀, 2048·b + y₁), and the block either meets the diagonal by the body's first
    condition or lies wholly to one side of it. -/
theorem block_entry (L : S8192x1.Idx → EReal) (R : S1x8192.Idx → EReal) (i : grid0.Coords)
    (x0 : Vec Ideal S1024x1 .f32) (x1 : Vec Ideal S1x2048 .f32) (a b : Nat) (ha : a ≤ 7) (hb : b ≤ 3)
    (hia : (i 0).val = a) (hib : (i 1).val = b)
    (hx0 : ∀ (p : Fin 1024) (r : Fin 8192), r.val = a * 1024 + p.val → x0 (ix2 p (0 : Fin 1)) = L (ix2 r (0 : Fin 1)))
    (hx1 : ∀ (q : Fin 2048) (r : Fin 8192), r.val = b * 2048 + q.val → x1 (ix2 (0 : Fin 1) q) = R (ix2 (0 : Fin 1) r))
    (hside : ¬ k0_cond1 i = 1#1 → a * 1024 + 1024 ≤ b * 2048 ∨ b * 2048 + 2048 ≤ a * 1024)
    (y : S1024x2048.Idx) (k : S8192x8192.Idx)
    (hk0 : (k 0).val = a * 1024 + (y 0).val) (hk1 : (k 1).val = b * 2048 + (y 1).val) :
    outAt i x0 x1 y = rowScores L R k := by
  obtain ⟨p, q, rfl⟩ : ∃ (p : Fin 1024) (q : Fin 2048), y = ix2 p q := ⟨y 0, y 1, eq_ix2 y⟩
  have hk0 : (k 0).val = a * 1024 + p.val := hk0
  have hk1 : (k 1).val = b * 2048 + q.val := hk1
  have hp := p.isLt
  have hq := q.isLt
  have hrow := hx0 p ⟨(k 0).val, idx2_lt0 k⟩ hk0
  have hcol := hx1 q ⟨(k 1).val, idx2_lt1 k⟩ hk1
  unfold outAt rowScores
  by_cases h1 : k0_cond1 i = 1#1
  · rw [if_pos h1]
    unfold outDiag
    rw [View.canon_unit_zero hz]
    simp only [View.ld_unit_zero (S := S1024x1) hz, View.ld_unit_zero (S := S1x2048) hz]
    rw [pay2_apply i x0 x1 p q (by omega) (by omega), hia, hib, hrow, hcol]
    exact if_congr (by rw [hk0, hk1]) rfl rfl
  · rw [if_neg h1]
    unfold outOff
    rw [View.canon_unit_zero hz]
    simp only [View.ld_unit_zero (S := S1024x1) hz, View.ld_unit_zero (S := S1x2048) hz]
    rw [pay1_apply, hrow, hcol, if_neg]
    have := hside h1
    omega

/-! ## The printed index maps over the grid -/

/-- The column's block follows the output block's row index, the row's block its column index; the output block's
    indices are the point's coordinates, below 8 and below 4. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ (grid0.coords t 0).val = win0_2.index t (0 : Fin 2) ∧ (grid0.coords t 1).val = win0_2.index t (1 : Fin 2)
    ∧ win0_2.index t (0 : Fin 2) ≤ 7 ∧ win0_2.index t (1 : Fin 2) ≤ 3 :=
  (by decide +kernel : ∀ t : Fin grid0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ (grid0.coords t 0).val = win0_2.index t (0 : Fin 2) ∧ (grid0.coords t 1).val = win0_2.index t (1 : Fin 2)
    ∧ win0_2.index t (0 : Fin 2) ≤ 7 ∧ win0_2.index t (1 : Fin 2) ≤ 3)

/-- A block the body's first condition rejects lies wholly above or wholly below the diagonal. -/
theorem off_diag : ∀ t : Fin cfg0.N, ¬ k0_cond1 (grid0.coords t) = 1#1 →
    win0_2.index t (0 : Fin 2) * 1024 + 1024 ≤ win0_2.index t (1 : Fin 2) * 2048
      ∨ win0_2.index t (1 : Fin 2) * 2048 + 2048 ≤ win0_2.index t (0 : Fin 2) * 1024 :=
  (by decide +kernel : ∀ t : Fin grid0.N, ¬ k0_cond1 (grid0.coords t) = 1#1 →
    win0_2.index t (0 : Fin 2) * 1024 + 1024 ≤ win0_2.index t (1 : Fin 2) * 2048
      ∨ win0_2.index t (1 : Fin 2) * 2048 + 2048 ≤ win0_2.index t (0 : Fin 2) * 1024)

/-- Every pair of block indices is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-! ## The input blocks read off the launched arrays -/

/-- Entry x of the column's block at point t is the column's entry k, when k is x moved by the block's offsets. -/
theorem iblk0_apply (c : Dev nD) (t : Fin cfg0.N) (x : S1024x1.Idx) (k : S8192x1.Idx)
    (hk0 : (k 0).val = win0_0.index t 0 * 1024 + (x 0).val) (hk1 : (k 1).val = win0_0.index t 1 * 1 + (x 1).val) :
    (iblk m c 0 t : Vec Ideal S1024x1 .f32) x = (V m c main_v11 : S8192x1.Idx → EReal) k := by
  unfold iblk
  rw [View.read_apply]
  show V m c main_v11 _ = V m c main_v11 _
  refine congrArg _ ?_
  funext a
  apply Fin.ext
  match a with
  | ⟨0, _⟩ => show win0_0.index t 0 * 1024 + 1 * (x 0).val = (k 0).val; omega
  | ⟨1, _⟩ => show win0_0.index t 1 * 1 + 1 * (x 1).val = (k 1).val; omega

/-- Entry x of the row's block at point t is the row's entry k, when k is x moved by the block's offsets. -/
theorem iblk1_apply (c : Dev nD) (t : Fin cfg0.N) (x : S1x2048.Idx) (k : S1x8192.Idx)
    (hk0 : (k 0).val = win0_1.index t 0 * 1 + (x 0).val) (hk1 : (k 1).val = win0_1.index t 1 * 2048 + (x 1).val) :
    (iblk m c 1 t : Vec Ideal S1x2048 .f32) x = (V m c main_v13 : S1x8192.Idx → EReal) k := by
  unfold iblk
  rw [View.read_apply]
  show V m c main_v13 _ = V m c main_v13 _
  refine congrArg _ ?_
  funext a
  apply Fin.ext
  match a with
  | ⟨0, _⟩ => show win0_1.index t 0 * 1 + 1 * (x 0).val = (k 0).val; omega
  | ⟨1, _⟩ => show win0_1.index t 1 * 2048 + 1 * (x 1).val = (k 1).val; omega

/-! ## What a point writes back, the cover, the final array -/

/-- What point t writes back is block t of the array's function of the launched column and row. -/
theorem flushed_eq (c : Dev nD) (t : Fin cfg0.N) :
    (dats m 0 c).flushed 2 t
      = ((cfg0.win 2).blk t).view.read (Elt Ideal) (rowScores (V m c main_v11) (V m c main_v13)) := by
  show (cfg0.win 2).cut (grid0.coords t) ((dats m 0 c).after 2 t) = _
  rw [after0_2]
  obtain ⟨e0, e1, e2, e3, e4, e5, e6, e7⟩ := idx_facts t
  funext j
  show outAt (grid0.coords t) (iblk m c 0 t) (iblk m c 1 t) j
    = rowScores (V m c main_v11) (V m c main_v13) (((cfg0.win 2).blk t).view.emb j)
  refine block_entry (V m c main_v11) (V m c main_v13) (grid0.coords t) _ _
    (win0_2.index t (0 : Fin 2)) (win0_2.index t (1 : Fin 2)) e6 e7 e4 e5 ?_ ?_ (off_diag t) j _ ?_ ?_
  · intro p r hr
    refine iblk0_apply m c t (ix2 p (0 : Fin 1)) (ix2 r (0 : Fin 1)) ?_ ?_
    · show r.val = win0_0.index t 0 * 1024 + p.val; omega
    · show (0 : Nat) = win0_0.index t 1 * 1 + 0; omega
  · intro q r hr
    refine iblk1_apply m c t (ix2 (0 : Fin 1) q) (ix2 (0 : Fin 1) r) ?_ ?_
    · show (0 : Nat) = win0_1.index t 0 * 1 + 0; omega
    · show r.val = win0_1.index t 1 * 2048 + q.val; omega
  · show win0_2.index t (0 : Fin 2) * 1024 + 1 * (j 0).val = _; omega
  · show win0_2.index t (1 : Fin 2) * 2048 + 1 * (j 1).val = _; omega

/-- An index of the array is in point t's block iff each coordinate is in the block's range on its axis. -/
theorem mem_blk (t : Fin cfg0.N) (i : S8192x8192.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v14).slice (win0_2.rect t)).set ↔ _
  rw [View.set_slice_whole, Rect.mem_set_unit]
  exact Iff.rfl

/-- The blocks tile the array: the entry (r, s) is in the block of the point with indices (r / 1024, s / 2048). -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- The score array after the run is the array's function of the launched column and row. -/
theorem final (c : Dev nD) :
    (dats m 0 c).arrAt 2 cfg0.N = rowScores (V m c main_v11) (V m c main_v13) :=
  (dats m 0 c).arrAt_eq_of_cover 2 (rowScores (V m c main_v11) (V m c main_v13)) (fun t _ => flushed_eq m c t) cover

/-- The run, read: the result array at the scores of the launched column and row, the arguments unchanged. -/
theorem run : θ_run defs (onTc (τ := τ) (main (F := Ideal))) ⟨m, fun _ => 0, ρ⟩ fun r => ∀ c : Dev nD,
      r.2.mem ((c : Thread nD τ).loc main_v14) = rowScores (V m c main_v11) (V m c main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.ScoreBlocks

end
-- ==== Proof.HostScores.lean ====
/-
  What the host computes before the region: the left and the right scores.

  The host cuts the weights W (1024×256) into their upper and lower 512 rows, multiplies each half by the attention
  column a (256×1), lays the two resulting columns side by side (512×2), multiplies the features H (8192×512) by
  that pair, and cuts the 8192×2 product into its two columns; the second is laid out as a row (1×8192). Every
  operand is narrowed to 16 bits on the way; on the extended reals narrowing changes nothing. The host's product is
  the matrix product, and a column of a product depends on one column of the right operand. So the first column is
  H · (W_upper · a) and the second is H · (W_lower · a).
-/
import proofs.«161237_j68573447848370_2_alg».proof.Proof.Gen.KernelIdeal.Frame
import proofs.«161237_j68573447848370_2_alg».proof.Proof.PairScores
import Idealize.ShloMosaic.Lib.ValueLayout
import Idealize.ShloMosaic.Lib.StableHlo.Run

open scoped BigOperators

noncomputable section

namespace Cert.KernelIdeal.HostScores

open Idealize.ShloMosaic Idealize.SL.Sem
open Cert.KernelIdeal Cert.KernelIdeal.Gen Cert.PairScores Cert.Lib.MatProd Idealize.ShloMosaic.ValueIdx
open Idealize.ShloMosaic.TcCoe

/-! ## The host operations as functions of the three arrays -/

/-- One half of the weights times the attention column, the operands first narrowed to 16 bits. -/
def upperCol (W : FVec Ideal S1024x256 .f32) (a : FVec Ideal S256x1 .f32) : FVec Ideal S512x1 .f32 :=
  Host.dotGeneral dot_S512x256_S256x1_S512x1_1_0_0_1_n_n none
    (truncf .bf16 (extractStridedSlice S512x256 ![0, 0] W slices_S1024x256_S512x256_0_0) bitsLt_bf16_f32)
    (truncf .bf16 a bitsLt_bf16_f32)

def lowerCol (W : FVec Ideal S1024x256 .f32) (a : FVec Ideal S256x1 .f32) : FVec Ideal S512x1 .f32 :=
  Host.dotGeneral dot_S512x256_S256x1_S512x1_1_0_0_1_n_n none
    (truncf .bf16 (extractStridedSlice S512x256 ![512, 0] W slices_S1024x256_S512x256_512_0) bitsLt_bf16_f32)
    (truncf .bf16 a bitsLt_bf16_f32)

/-- The two columns side by side. -/
def colsW (W : FVec Ideal S1024x256 .f32) (a : FVec Ideal S256x1 .f32) : FVec Ideal S512x2 .f32 :=
  concatenate S512x2 1 [⟨S512x1, upperCol W a⟩, ⟨S512x1, lowerCol W a⟩] concatenates_S512x1_S512x1_S512x2_d1

/-- The features times the two columns. -/
def scoreCols (H : FVec Ideal S8192x512 .f32) (W : FVec Ideal S1024x256 .f32) (a : FVec Ideal S256x1 .f32) :
    FVec Ideal S8192x2 .f32 :=
  Host.dotGeneral dot_S8192x512_S512x2_S8192x2_1_0_0_1_n_n none
    (truncf .bf16 H bitsLt_bf16_f32) (truncf .bf16 (colsW W a) bitsLt_bf16_f32)

def hostLeft (H : FVec Ideal S8192x512 .f32) (W : FVec Ideal S1024x256 .f32) (a : FVec Ideal S256x1 .f32) :
    FVec Ideal S8192x1 .f32 :=
  extractStridedSlice S8192x1 ![0, 0] (scoreCols H W a) slices_S8192x2_S8192x1_0_0

def hostRight (H : FVec Ideal S8192x512 .f32) (W : FVec Ideal S1024x256 .f32) (a : FVec Ideal S256x1 .f32) :
    FVec Ideal S1x8192 .f32 :=
  shapeCast S1x8192 (extractStridedSlice S8192x1 ![0, 1] (scoreCols H W a) slices_S8192x2_S8192x1_0_1)
    shapeCasts_S8192x1_S1x8192

/-! ## What they compute -/

/-- The first 512 rows of the weights, cut by the host, are the upper half. -/
theorem slice_upper (W : FVec Ideal S1024x256 .f32) :
    (extractStridedSlice S512x256 ![0, 0] W slices_S1024x256_S512x256_0_0 : S512x256.Idx → EReal) = upper W := by
  funext i
  obtain ⟨r, o, rfl⟩ : ∃ (r : Fin 512) (o : Fin 256), i = ix2 r o := ⟨i 0, i 1, eq_ix2 i⟩
  rw [upper_apply]
  exact slice2_axis0_apply 0 W _ r o ⟨r.val, by omega⟩ (Nat.zero_add _).symm

/-- The last 512 rows are the lower half. -/
theorem slice_lower (W : FVec Ideal S1024x256 .f32) :
    (extractStridedSlice S512x256 ![512, 0] W slices_S1024x256_S512x256_512_0 : S512x256.Idx → EReal) = lower W := by
  funext i
  obtain ⟨r, o, rfl⟩ : ∃ (r : Fin 512) (o : Fin 256), i = ix2 r o := ⟨i 0, i 1, eq_ix2 i⟩
  rw [lower_apply]
  exact slice2_axis0_apply 512 W _ r o ⟨512 + r.val, by omega⟩ rfl

/-- Narrowing to 16 bits changes nothing on the extended reals, and the host's product is the matrix product: the
    upper column is W_upper · a. -/
theorem upperCol_eq (W : FVec Ideal S1024x256 .f32) (a : FVec Ideal S256x1 .f32) :
    (upperCol W a : S512x1.Idx → EReal) = matProd (upper W) a :=
  (dotGeneral_eq_matProd dot_S512x256_S256x1_S512x1_1_0_0_1_n_n rfl rfl rfl rfl rfl rfl none .single _ _).trans
    (congrArg (fun U => matProd U a) (slice_upper W))

theorem lowerCol_eq (W : FVec Ideal S1024x256 .f32) (a : FVec Ideal S256x1 .f32) :
    (lowerCol W a : S512x1.Idx → EReal) = matProd (lower W) a :=
  (dotGeneral_eq_matProd dot_S512x256_S256x1_S512x1_1_0_0_1_n_n rfl rfl rfl rfl rfl rfl none .single _ _).trans
    (congrArg (fun U => matProd U a) (slice_lower W))

/-- Column 0 of the two columns side by side is the upper column. -/
theorem colsW_zero (W : FVec Ideal S1024x256 .f32) (a : FVec Ideal S256x1 .f32) (k : Fin 512) :
    colsW W a (ix2 k (0 : Fin 2)) = matProd (upper W) a (ix2 k (0 : Fin 1)) := by
  refine (concatenate_pair_apply_left (1 : Fin 2) (upperCol W a) (lowerCol W a)
    concatenates_S512x1_S512x1_S512x2_d1 (ix2 k (0 : Fin 2)) rfl (ix2 k (0 : Fin 1)) (fun b => ?_)).trans
    (congrFun (upperCol_eq W a) _)
  match b with
  | ⟨0, _⟩ => rfl
  | ⟨1, _⟩ => rfl

/-- Column 1 is the lower column. -/
theorem colsW_one (W : FVec Ideal S1024x256 .f32) (a : FVec Ideal S256x1 .f32) (k : Fin 512) :
    colsW W a (ix2 k (1 : Fin 2)) = matProd (lower W) a (ix2 k (0 : Fin 1)) := by
  refine (concatenate_pair_apply_right (1 : Fin 2) (upperCol W a) (lowerCol W a)
    concatenates_S512x1_S512x1_S512x2_d1 (ix2 k (1 : Fin 2)) rfl rfl (ix2 k (0 : Fin 1)) (fun b hb => ?_) rfl).trans
    (congrFun (lowerCol_eq W a) _)
  match b, hb with
  | ⟨0, _⟩, _ => rfl
  | ⟨1, _⟩, hb => exact absurd rfl hb

/-- A column of a product depends on one column of the right operand: column 0 of H · [u | l] is H · u. -/
theorem scoreCols_zero (H : FVec Ideal S8192x512 .f32) (W : FVec Ideal S1024x256 .f32) (a : FVec Ideal S256x1 .f32)
    (p : Fin 8192) :
    scoreCols H W a (ix2 p (0 : Fin 2)) = matProd H (matProd (upper W) a) (ix2 p (0 : Fin 1)) :=
  (congrFun (dotGeneral_eq_matProd dot_S8192x512_S512x2_S8192x2_1_0_0_1_n_n rfl rfl rfl rfl rfl rfl none .single
    _ _) _).trans
    (matProd_block H _ (matProd (upper W) a) _ p (0 : Fin 2) p (0 : Fin 1) (fun _ => rfl) (fun k => colsW_zero W a k))

/-- Column 1 of H · [u | l] is H · l. -/
theorem scoreCols_one (H : FVec Ideal S8192x512 .f32) (W : FVec Ideal S1024x256 .f32) (a : FVec Ideal S256x1 .f32)
    (p : Fin 8192) :
    scoreCols H W a (ix2 p (1 : Fin 2)) = matProd H (matProd (lower W) a) (ix2 p (0 : Fin 1)) :=
  (congrFun (dotGeneral_eq_matProd dot_S8192x512_S512x2_S8192x2_1_0_0_1_n_n rfl rfl rfl rfl rfl rfl none .single
    _ _) _).trans
    (matProd_block H _ (matProd (lower W) a) _ p (1 : Fin 2) p (0 : Fin 1) (fun _ => rfl) (fun k => colsW_one W a k))

/-- The left scores: column 0 cut out of the product. -/
theorem hostLeft_eq (H : FVec Ideal S8192x512 .f32) (W : FVec Ideal S1024x256 .f32) (a : FVec Ideal S256x1 .f32) :
    (hostLeft H W a : S8192x1.Idx → EReal) = matProd H (matProd (upper W) a) := by
  funext i
  obtain ⟨p, z, rfl⟩ : ∃ (p : Fin 8192) (z : Fin 1), i = ix2 p z := ⟨i 0, i 1, eq_ix2 i⟩
  obtain rfl : z = 0 := Subsingleton.elim _ _
  exact (slice2_axis1_apply 0 (scoreCols H W a) slices_S8192x2_S8192x1_0_0 p (0 : Fin 1) (0 : Fin 2) rfl).trans
    (scoreCols_zero H W a p)

/-- The right scores: column 1 cut out of the product and laid out as a row. -/
theorem hostRight_apply (H : FVec Ideal S8192x512 .f32) (W : FVec Ideal S1024x256 .f32) (a : FVec Ideal S256x1 .f32)
    (q : Fin 8192) :
    hostRight H W a (ix2 (0 : Fin 1) q) = matProd H (matProd (lower W) a) (ix2 q (0 : Fin 1)) := by
  refine (shapeCast_apply _ shapeCasts_S8192x1_S1x8192 (ix2 (0 : Fin 1) q) (ix2 q (0 : Fin 1)) ?_).trans
    ((slice2_axis1_apply 1 (scoreCols H W a) slices_S8192x2_S8192x1_0_1 q (0 : Fin 1) (1 : Fin 2) rfl).trans
      (scoreCols_one H W a q))
  rw [Shape.rowMajor_val_two, Shape.rowMajor_val_two]
  show q.val * 1 + 0 = 0 * 8192 + q.val
  omega

/-! ## The arrays the region finds -/

variable (m : (ℓ : Loc nD τ sig) → Buf (Elt Ideal) ℓ) (c : Dev nD)

/-- When the region is entered, the left-score array holds H · (W_upper · a). -/
theorem V_left : (V (F := Ideal) m c main_v11 : S8192x1.Idx → EReal)
    = matProd (m ((c : Thread nD τ).loc main_arg0))
        (matProd (upper (m ((c : Thread nD τ).loc main_arg1))) (m ((c : Thread nD τ).loc main_arg2))) := by
  have e : (V (F := Ideal) m c main_v11 : S8192x1.Idx → EReal)
      = hostLeft (m ((c : Thread nD τ).loc main_arg0)) (m ((c : Thread nD τ).loc main_arg1))
          (m ((c : Thread nD τ).loc main_arg2)) := by
    dsimp only [Gen.V, Gen.hostOps0]
    after_results
    rfl
  exact e.trans (hostLeft_eq _ _ _)

set_option maxHeartbeats 1000000 in
/-- And the right-score array, a row, holds at q the entry q of H · (W_lower · a). -/
theorem V_right (q : Fin 8192) : (V (F := Ideal) m c main_v13 : S1x8192.Idx → EReal) (ix2 (0 : Fin 1) q)
    = matProd (m ((c : Thread nD τ).loc main_arg0))
        (matProd (lower (m ((c : Thread nD τ).loc main_arg1))) (m ((c : Thread nD τ).loc main_arg2)))
        (ix2 q (0 : Fin 1)) := by
  have e : (V (F := Ideal) m c main_v13 : S1x8192.Idx → EReal)
      = hostRight (m ((c : Thread nD τ).loc main_arg0)) (m ((c : Thread nD τ).loc main_arg1))
          (m ((c : Thread nD τ).loc main_arg2)) := by
    dsimp only [Gen.V, Gen.hostOps0]
    after_results
    rfl
  exact (congrFun e _).trans (hostRight_apply _ _ _ q)

end Cert.KernelIdeal.HostScores

end
-- ==== Proof.KernelScores.lean ====
/-
  The idealized kernel program's result as the pairwise scores with the products grouped H·(W·a).

  Its pipeline is launched on the column of left scores H·(W_upper·a) and on the ROW of right scores, the column
  H·(W_lower·a) laid along the second axis; a row read at (0, q) is the column read at (q, 0), so the scores of the
  column and the row are the pairwise scores of the two columns.
-/
import proofs.«161237_j68573447848370_2_alg».proof.Proof.ScoreBlocks
import proofs.«161237_j68573447848370_2_alg».proof.Proof.HostScores
import proofs.«161237_j68573447848370_2_alg».proof.Proof.PairScores

noncomputable section

namespace Cert.KernelIdeal.KernelScores

open Cert.KernelIdeal Cert.KernelIdeal.Gen Cert.PairScores Cert.KernelIdeal.ScoreBlocks
open Idealize.ShloMosaic Idealize.ShloMosaic.TcCoe Idealize.SL.Sem Idealize.ShloMosaic.ValueIdx

/-- The scores of a column and a row are the pairwise scores of the column and of the row stood up as a column. -/
theorem rowScores_eq_pairScores (L : S8192x1.Idx → EReal) (R : S1x8192.Idx → EReal) (R' : S8192x1.Idx → EReal)
    (h : ∀ q : Fin 8192, R (ix2 (0 : Fin 1) q) = R' (ix2 q (0 : Fin 1))) : rowScores L R = pairScores L R' := by
  funext i
  unfold rowScores pairScores
  rw [h]

variable (m : (ℓ : Loc nD τ sig) → Buf (Elt Ideal) ℓ) (ρ : Dev nD → PrngReg)

/-- The scores of the launched column and row are the scores of the arguments, each product grouped H·(W·a). -/
theorem launched_scores (c : Dev nD) :
    rowScores (V m c main_v11) (V m c main_v13)
      = scoresInner (m ((c : Thread nD τ).loc main_arg0)) (m ((c : Thread nD τ).loc main_arg1)) (m ((c : Thread nD τ).loc main_arg2)) := by
  unfold scoresInner
  rw [← Cert.KernelIdeal.HostScores.V_left m c]
  exact rowScores_eq_pairScores _ _ _ (Cert.KernelIdeal.HostScores.V_right m c)

/-- The run, read at the arguments: the result array at the scores grouped H·(W·a), the arguments unchanged. -/
theorem run : θ_run defs (onTc (τ := τ) (main (F := Ideal))) ⟨m, fun _ => 0, ρ⟩ fun r => ∀ c : Dev nD,
      r.2.mem ((c : Thread nD τ).loc main_v14)
        = scoresInner (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (launched_scores m c), (h c).2⟩) (Cert.KernelIdeal.ScoreBlocks.run m ρ)

end Cert.KernelIdeal.KernelScores

end
-- ==== Proof.RealInputs.lean ====
/-
  Finite inputs are reals.

  The input check takes |x| < +∞ at every entry of the three argument arrays, folds each array's answers with "and",
  and conjoins the three folds. If the check answers 1, each fold answered 1, so each entry's comparison answered 1;
  and an extended real whose absolute value is below +∞ is a real.
-/
import proofs.«161237_j68573447848370_2_alg».proof.Defs
import proofs.«161237_j68573447848370_2_alg».proof.Proof.Gen.Pre_finite_inputs
import proofs.«161237_j68573447848370_2_alg».proof.Proof.LibIdealSums
import Idealize.ShloMosaic.Lib.ReduceAll

namespace Cert.KernelIdeal.RealInputs

open Idealize.ShloMosaic Idealize.SL.Sem

/-- The shape of rank zero has exactly one index. -/
instance : Subsingleton Cert.Pre_finite_inputs.S_.Idx := ⟨fun a b => funext fun d => d.elim0⟩

/-- Under the input check every entry of the features, of the weights and of the attention column is a real. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.Lib.IdealSums.IsReal (m ((c.tc : Thread Cert.KernelIdeal.nD Cert.KernelIdeal.τ).loc Cert.KernelIdeal.main_arg0) i))
    ∧ (∀ i, Cert.Lib.IdealSums.IsReal (m ((c.tc : Thread _ _).loc Cert.KernelIdeal.main_arg1) i))
    ∧ (∀ i, Cert.Lib.IdealSums.IsReal (m ((c.tc : Thread _ _).loc Cert.KernelIdeal.main_arg2) i)) := by
  have h0 := congrFun (h c) ValueIdx.ix0
  dsimp only [Cert.Pre_finite_inputs.fn] at h0
  -- the conjunction of the three folds is 1: each fold is 1
  obtain ⟨h01, h2⟩ := IntOp.andi_eq_one.1 h0
  obtain ⟨h00, h1⟩ := IntOp.andi_eq_one.1 h01
  -- a fold by "and" over all axes that is 1 met a 1 at every entry; the entry's comparison is |x| < +∞
  refine ⟨fun i => ?_, fun i => ?_, fun i => ?_⟩
  · exact Cert.Lib.IdealSums.isReal_of_cmpf_abs _ (Host.reduce_andi_all _ _ _ _ _ h00 i)
  · exact Cert.Lib.IdealSums.isReal_of_cmpf_abs _ (Host.reduce_andi_all _ _ _ _ _ h1 i)
  · exact Cert.Lib.IdealSums.isReal_of_cmpf_abs _ (Host.reduce_andi_all _ _ _ _ _ h2 i)

end Cert.KernelIdeal.RealInputs
-- ==== Proof.LibTypedRefs.lean ====
/-
  A typed reference to a buffer carries contents to the buffer's own type and back along the equation between the two
  types; carried there and back they are unchanged. Nothing here mentions a program.
-/
import Idealize.ShloMosaic.Lib.StableHlo

namespace Cert.Lib.TypedRefs

open Idealize.ShloMosaic Idealize.ShloMosaic.StableHlo

variable {sig : RefSig} {Val : EltTy → Type}

/-- Contents carried to a buffer's own type and back are unchanged. -/
theorem ofBuf_toBuf {T : BufTy} (x : TRef sig T) (v : T.Contents Val) : x.ofBuf (x.toBuf v) = v := by
  obtain ⟨r, h, _, _⟩ := x
  subst h
  rfl

end Cert.Lib.TypedRefs
-- ==== Proof.ReferenceRun.lean ====
/-
  The reference program's run, and the value it leaves.

  The reference computes, for a feature matrix H, a weight matrix W and a column a: the two score columns
  (H·W_upper)·a and (H·W_lower)·a, the array of sums left(p) + right(q), the leaky rectifier of each sum (tested as
  s ≥ 0), and the product of that with 1 − δ(p, q), where δ is the indicator of the diagonal. The program is a straight
  line of thirty operations (the rectifier's and the selection's lines written out where they are called); its run
  leaves the result buffer at the operations' composed term of the three arguments. Read at an index (p, q) that term
  is x·(1 − 1) = 0 on the diagonal and x·(1 − 0) = x off it, with x the rectified sum: the pair scores grouped as
  (H·W)·a.
-/
import proofs.«161237_j68573447848370_2_alg».proof.Proof.Gen.ReferenceIdeal
import proofs.«161237_j68573447848370_2_alg».proof.Proof.PairScores
import proofs.«161237_j68573447848370_2_alg».proof.Proof.LibTypedRefs
import proofs.«161237_j68573447848370_2_alg».proof.Proof.LibRowReductions
import proofs.«161237_j68573447848370_2_alg».proof.Proof.LibRowVector
import Idealize.ShloMosaic.Lib.StableHlo.Run
import Idealize.ShloMosaic.Lib.ValueIdx
import Idealize.ShloMosaic.Lib.ValueLayout
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's thirty operations in order, the two calls written out: the rectifier's six lines and the selection's one
    run into the call's own buffers. -/
abbrev ops : List (HloOp τ sig (Elt F)) :=
  [ unary main_arg1 main_v0 ((extractStridedSlice S512x256 ![0, 0] · slices_S1024x256_S512x256_0_0) : (⟨S1024x256, .f32⟩ : BufTy).Contents (Elt F) → (⟨S512x256, .f32⟩ : BufTy).Contents (Elt F)),
    binary main_arg0 main_v0 main_v1 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_v1 main_arg2 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_arg1 main_v3 ((extractStridedSlice S512x256 ![512, 0] · slices_S1024x256_S512x256_512_0) : (⟨S1024x256, .f32⟩ : BufTy).Contents (Elt F) → (⟨S512x256, .f32⟩ : BufTy).Contents (Elt F)),
    binary main_arg0 main_v3 main_v4 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_v4 main_arg2 main_v5 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    reshape main_v5 main_v6 rfl shapeCasts_S8192x1_S8192,
    unary main_v6 main_v7 (broadcastInDim S1x8192 ![1] bcast_S8192_S1x8192_1 : (⟨S8192, .f32⟩ : BufTy).Contents (Elt F) → (⟨S1x8192, .f32⟩ : BufTy).Contents (Elt F)),
    unary main_v2 main_v8 (broadcastInDim S8192x8192 ![0, 1] bcast_S8192x1_S8192x8192_0_1 : (⟨S8192x1, .f32⟩ : BufTy).Contents (Elt F) → (⟨S8192x8192, .f32⟩ : BufTy).Contents (Elt F)),
    unary main_v7 main_v9 (broadcastInDim S8192x8192 ![0, 1] bcast_S1x8192_S8192x8192_0_1 : (⟨S1x8192, .f32⟩ : BufTy).Contents (Elt F) → (⟨S8192x8192, .f32⟩ : BufTy).Contents (Elt F)),
    binary main_v8 main_v9 main_v10 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v10) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v10) main_call0.v4 mulf,
    TRef.ternary main_call0.v1 (.of main_v10) main_call0.v4 main_call0.call0.v0 select,
    nullary main_v12 (iotaInDim S8192x8192 32 0),
    nullary main_v13 (iotaInDim S8192x8192 32 1),
    nullary main_c (constantI S_ 32 0#32),
    unary main_c main_v14 (broadcastInDim S8192x8192 ![] bcast_S_S8192x8192 : (⟨S_, .i32⟩ : BufTy).Contents (Elt F) → (⟨S8192x8192, .i32⟩ : BufTy).Contents (Elt F)),
    binary main_v12 main_v14 main_v15 (addi : (⟨S8192x8192, .i32⟩ : BufTy).Contents (Elt F) → (⟨S8192x8192, .i32⟩ : BufTy).Contents (Elt F) → (⟨S8192x8192, .i32⟩ : BufTy).Contents (Elt F)),
    binary main_v15 main_v13 main_v16 (cmpi .eq : (⟨S8192x8192, .i32⟩ : BufTy).Contents (Elt F) → (⟨S8192x8192, .i32⟩ : BufTy).Contents (Elt F) → (⟨S8192x8192, .i1⟩ : BufTy).Contents (Elt F)),
    unary main_v16 main_v17 (uitofp .f32 : (⟨S8192x8192, .i1⟩ : BufTy).Contents (Elt F) → (⟨S8192x8192, .f32⟩ : BufTy).Contents (Elt F)),
    nullary main_cst_0 (constant S_ .f32 0x3F800000#32),
    unary main_cst_0 main_v18 (broadcastInDim S8192x8192 ![] bcast_S_S8192x8192 : (⟨S_, .f32⟩ : BufTy).Contents (Elt F) → (⟨S8192x8192, .f32⟩ : BufTy).Contents (Elt F)),
    binary main_v18 main_v17 main_v19 (subf : (⟨S8192x8192, .f32⟩ : BufTy).Contents (Elt F) → (⟨S8192x8192, .f32⟩ : BufTy).Contents (Elt F) → (⟨S8192x8192, .f32⟩ : BufTy).Contents (Elt F)),
    binary main_v11 main_v19 main_v20 (mulf : (⟨S8192x8192, .f32⟩ : BufTy).Contents (Elt F) → (⟨S8192x8192, .f32⟩ : BufTy).Contents (Elt F) → (⟨S8192x8192, .f32⟩ : BufTy).Contents (Elt F)) ]

set_option maxRecDepth 1024 in
/-- @main is that straight line: the two functions' bodies opened at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., binary_bufs_sub .., unary_bufs_sub .., binary_bufs_sub .., binary_bufs_sub .., reshape_bufs_sub .., unary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub ..⟩

/-- From any memory with zero counters every weakly fair execution of @main terminates, each buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

section Term

variable (H : (⟨S8192x512, .f32⟩ : BufTy).Contents (Elt F)) (W : (⟨S1024x256, .f32⟩ : BufTy).Contents (Elt F))
  (a : (⟨S256x1, .f32⟩ : BufTy).Contents (Elt F))

/-- The column of left scores: (H · W's upper rows) · a. -/
def leftCol : (⟨S8192x1, .f32⟩ : BufTy).Contents (Elt F) :=
  Host.dotGeneral dot_S8192x256_S256x1_S8192x1_1_0_0_1_n_n none
    (Host.dotGeneral dot_S8192x512_S512x256_S8192x256_1_0_0_1_n_n none H
      (extractStridedSlice S512x256 ![0, 0] W slices_S1024x256_S512x256_0_0)) a

/-- The column of right scores: (H · W's lower rows) · a. -/
def rightCol : (⟨S8192x1, .f32⟩ : BufTy).Contents (Elt F) :=
  Host.dotGeneral dot_S8192x256_S256x1_S8192x1_1_0_0_1_n_n none
    (Host.dotGeneral dot_S8192x512_S512x256_S8192x256_1_0_0_1_n_n none H
      (extractStridedSlice S512x256 ![512, 0] W slices_S1024x256_S512x256_512_0)) a

/-- The array of sums left(p) + right(q): the left column repeated along the rows, the right column laid as a row and
    repeated down the columns. -/
def sums : (⟨S8192x8192, .f32⟩ : BufTy).Contents (Elt F) :=
  addf (broadcastInDim S8192x8192 ![0, 1] bcast_S8192x1_S8192x8192_0_1 (leftCol H W a))
    (broadcastInDim S8192x8192 ![0, 1] bcast_S1x8192_S8192x8192_0_1
      (broadcastInDim S1x8192 ![1] bcast_S8192_S1x8192_1
        (shapeCast S8192 (rightCol H W a) shapeCasts_S8192x1_S8192)))

/-- The leaky rectifier of every entry, tested as s ≥ 0. -/
def rectified (s : (⟨S8192x8192, .f32⟩ : BufTy).Contents (Elt F)) : (⟨S8192x8192, .f32⟩ : BufTy).Contents (Elt F) :=
  select (cmpf .oge s (broadcastInDim S8192x8192 ![] bcast_S_S8192x8192 (constant S_ .f32 0x00000000#32))) s
    (mulf (broadcastInDim S8192x8192 ![] bcast_S_S8192x8192 (constant S_ .f32 0x3E4CCCCD#32)) s)

/-- One minus the indicator of the diagonal. -/
def offDiagonal : (⟨S8192x8192, .f32⟩ : BufTy).Contents (Elt F) :=
  subf (broadcastInDim S8192x8192 ![] bcast_S_S8192x8192 (constant S_ .f32 0x3F800000#32))
    (uitofp .f32 (cmpi .eq
      (addi (iotaInDim S8192x8192 32 0) (broadcastInDim S8192x8192 ![] bcast_S_S8192x8192 (constantI S_ 32 0#32)))
      (iotaInDim S8192x8192 32 1)))

/-- The operations' composed term: the rectified sums times one minus the diagonal's indicator. -/
def refTerm : (⟨S8192x8192, .f32⟩ : BufTy).Contents (Elt F) :=
  mulf (rectified (sums H W a)) offDiagonal

end Term

/-- After the thirty operations the result buffer holds the composed term of the three arguments. -/
theorem out_eq (V : Valuation τ sig (Elt F)) :
    after ops V (main_v20 : DevRef τ sig)
      = refTerm (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-! ## The composed term is the pair scores -/

section Value

open Idealize.ShloMosaic.ValueIdx Cert.PairScores Cert.Lib.MatProd

variable (H : (⟨2, ![8192, 512]⟩ : Shape).Idx → EReal) (W : (⟨2, ![1024, 256]⟩ : Shape).Idx → EReal)
  (a : (⟨2, ![256, 1]⟩ : Shape).Idx → EReal)

/-- The slice of rows 0 … 511 is the upper half. -/
theorem slice_upper :
    extractStridedSlice (α := EReal) S512x256 ![0, 0] W slices_S1024x256_S512x256_0_0 = upper W := by
  funext j
  unfold upper
  refine extractStridedSlice_apply _ W _ j _ fun ax => ?_
  match ax with
  | ⟨0, _⟩ => show (j 0).val = 0 + (j 0).val; omega
  | ⟨1, _⟩ => show (j 1).val = 0 + (j 1).val; omega

/-- The slice of rows 512 … 1023 is the lower half. -/
theorem slice_lower :
    extractStridedSlice (α := EReal) S512x256 ![512, 0] W slices_S1024x256_S512x256_512_0 = lower W := by
  funext j
  unfold lower
  refine extractStridedSlice_apply _ W _ j _ fun ax => ?_
  match ax with
  | ⟨0, _⟩ => rfl
  | ⟨1, _⟩ => show (j 1).val = 0 + (j 1).val; omega

/-- The left column is the product grouped (H · W_upper) · a. -/
theorem leftCol_eq : leftCol (F := Ideal) H W a = matProd (matProd H (upper W)) a := by
  unfold leftCol
  rw [slice_upper]
  simp only [Host.dotGeneral]
  rw [dotGeneral_eq_matProd _ rfl rfl rfl rfl rfl rfl, dotGeneral_eq_matProd _ rfl rfl rfl rfl rfl rfl]

/-- The right column is the product grouped (H · W_lower) · a. -/
theorem rightCol_eq : rightCol (F := Ideal) H W a = matProd (matProd H (lower W)) a := by
  unfold rightCol
  rw [slice_lower]
  simp only [Host.dotGeneral]
  rw [dotGeneral_eq_matProd _ rfl rfl rfl rfl rfl rfl, dotGeneral_eq_matProd _ rfl rfl rfl rfl rfl rfl]

/-- Entry (p, q) of the array of sums is left(p) + right(q). -/
theorem sums_apply (p q : Fin 8192) :
    sums (F := Ideal) H W a (ix2 p q)
      = leftCol (F := Ideal) H W a (ix2 p (0 : Fin 1)) + rightCol (F := Ideal) H W a (ix2 q (0 : Fin 1)) := by
  unfold sums
  rw [addf_apply, Cert.Lib.RowReductions.bcastInDim_cols_apply, Cert.Lib.RowVector.bcastInDim_rows_apply,
    Cert.Lib.RowVector.bcastInDim_eq_asRow, Cert.Lib.RowVector.asRow_apply]
  congr 1
  refine shapeCast_apply _ _ _ _ ?_
  rw [Shape.rowMajor_val_two, Shape.rowMajor_val_one]
  show q.val * 1 + 0 = q.val
  omega

/-- The rectifier written with the test s ≥ 0 against the zero word is the leaky rectifier at every entry. -/
theorem rectified_apply (s : (⟨2, ![8192, 8192]⟩ : Shape).Idx → EReal) (i : (⟨2, ![8192, 8192]⟩ : Shape).Idx) :
    rectified (F := Ideal) s i = leaky (s i) := by
  unfold rectified
  rw [select_apply, cmpf_apply, mulf_apply, Cert.Lib.RowVector.bcastInDim_scalar_apply,
    Cert.Lib.RowVector.bcastInDim_scalar_apply, constant_apply, constant_apply, Ideal.ofBits_zero_f32,
    ← leaky_eq_of_le]
  show Scalar.select (Ideal.cmp .oge (s i) 0) (s i) (slope * s i) = _
  by_cases h : (0 : EReal) ≤ s i
  · have hc : Ideal.cmp .oge (s i) 0 = 1#1 := by simp [Ideal.cmp, h]
    rw [hc, select_one, if_pos h]
  · have hc : Ideal.cmp .oge (s i) 0 = 0#1 := by simp [Ideal.cmp, h]
    rw [hc, select_zero, if_neg h]

/-- One minus the diagonal's indicator is 0 on the diagonal and 1 off it: two row numbers below 2³² are equal as
    32-bit words exactly when they are equal. -/
theorem offDiagonal_apply (p q : Fin 8192) :
    offDiagonal (F := Ideal) (ix2 p q) = if p.val = q.val then 0 else 1 := by
  unfold offDiagonal
  rw [subf_apply, Cert.Lib.RowVector.bcastInDim_scalar_apply, constant_apply, Ideal.ofBits_one_f32]
  show (1 : EReal) - (((IntOp.cmpi .eq (IntOp.addi (BitVec.ofNat 32 p.val) 0#32) (BitVec.ofNat 32 q.val)).toNat : ℝ) : EReal) = _
  have hp := p.isLt
  have hq := q.isLt
  by_cases h : p.val = q.val
  · have hc : IntOp.cmpi .eq (IntOp.addi (BitVec.ofNat 32 p.val) 0#32) (BitVec.ofNat 32 q.val) = 1#1 := by
      simp [IntOp.cmpi, IntOp.addi, h]
    have e : (((1#1 : BitVec 1).toNat : ℝ) : EReal) = 1 := by norm_num
    rw [hc, if_pos h, e, ← EReal.coe_one, ← EReal.coe_sub, sub_self, EReal.coe_zero]
  · have hne : BitVec.ofNat 32 p.val ≠ BitVec.ofNat 32 q.val := by
      intro e
      have := congrArg BitVec.toNat e
      simp only [BitVec.toNat_ofNat] at this
      omega
    have hb : (BitVec.ofNat 32 p.val == BitVec.ofNat 32 q.val) = false := beq_eq_false_iff_ne.mpr hne
    have hc : IntOp.cmpi .eq (IntOp.addi (BitVec.ofNat 32 p.val) 0#32) (BitVec.ofNat 32 q.val) = 0#1 := by
      show BitVec.ofBool (BitVec.ofNat 32 p.val + 0#32 == BitVec.ofNat 32 q.val) = 0#1
      rw [BitVec.add_zero, hb]
      rfl
    have e : (((0#1 : BitVec 1).toNat : ℝ) : EReal) = 0 := by norm_num
    rw [hc, if_neg h, e, sub_zero]

/-- The composed term is the pair scores grouped as (H·W)·a: on the diagonal x·(1 − 1) = 0, off it x·(1 − 0) = x,
    with x the rectified sum of the left score of the row and the right score of the column. -/
theorem refTerm_eq_scoresOuter : refTerm (F := Ideal) H W a = scoresOuter H W a := by
  funext i
  obtain ⟨p, q, rfl⟩ : ∃ (p q : Fin 8192), i = ix2 p q := ⟨i 0, i 1, eq_ix2 i⟩
  unfold refTerm scoresOuter
  rw [mulf_apply, rectified_apply, sums_apply, offDiagonal_apply, pairScores_apply, leftCol_eq, rightCol_eq]
  by_cases h : p.val = q.val
  · rw [if_pos h, if_pos h, mul_zero]
  · rw [if_neg h, if_neg h, mul_one]

end Value

/-! ## The run -/

/-- On the extended reals, from any memory with zero counters: every weakly fair execution of @main terminates with the
    result buffer at the pair scores of the three arguments, grouped as (H·W)·a, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20)
          = Cert.PairScores.scoresOuter (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v20).trans ((out_eq _).trans (refTerm_eq_scoresOuter _ _ _)),
      (h c main_arg0).trans (arg0_eq _), (h c main_arg1).trans (arg1_eq _), (h c main_arg2).trans (arg2_eq _)⟩)
    (run_main m ρ)

end Cert.ReferenceIdeal.RefValue

end
-- ==== Proof.lean ====
/-
  Pairwise attention scores: a kernel program against its reference, over the extended reals.

  Both programs take a feature matrix H (8192×512), a weight matrix W (1024×256) and a column a (256×1), and return the
  8192×8192 array whose entry (p, q) is zero for p = q and otherwise the leaky rectifier (slope the word 0x3E4CCCCD)
  of left(p) + right(q), where left = H·W_upper·a and right = H·W_lower·a over the upper and the lower 512 rows of W.

  The reference groups each product as (H·W)·a, rectifies with the test `0 ≤ s`, and multiplies by one minus the
  identity matrix; at every extended real s·(1 − 1) = 0 and s·(1 − 0) = s, and the two rectifier tests give one
  function. The kernel program groups each product as H·(W·a) on the host (rounding to 16 bits is the identity at
  the ideal values), then a grid of 8×4 points each stores one 1024×2048 block of the result: the rectified sums
  (test `0 < s`), with the diagonal entries replaced by zero in the blocks that meet the diagonal. The two
  groupings agree over matrices of reals, which is where the finiteness of the inputs is used; nothing else needs it.

  The frames of the two kernel programs run the body's triple at every grid point through the pipeline's launch
  theorem; the reference's frame is its run with the result dropped. The idealization rewrote no operation.
-/
import proofs.«161237_j68573447848370_2_alg».proof.Defs
import proofs.«161237_j68573447848370_2_alg».proof.Proof.Gen.Kernel
import proofs.«161237_j68573447848370_2_alg».proof.Proof.Gen.KernelIdeal
import proofs.«161237_j68573447848370_2_alg».proof.Proof.Gen.ReferenceIdeal
import proofs.«161237_j68573447848370_2_alg».proof.Proof.Gen.Pre_finite_inputs
import proofs.«161237_j68573447848370_2_alg».proof.Proof.RunBits
import proofs.«161237_j68573447848370_2_alg».proof.Proof.RunIdeal
import proofs.«161237_j68573447848370_2_alg».proof.Proof.KernelScores
import proofs.«161237_j68573447848370_2_alg».proof.Proof.RealInputs
import proofs.«161237_j68573447848370_2_alg».proof.Proof.ReferenceRun
import proofs.«161237_j68573447848370_2_alg».proof.Proof.PairScores

noncomputable section

namespace Cert.Proof

open Idealize.ShloMosaic Idealize.ShloMosaic.TcCoe Idealize.SL.Sem

/-- The program as printed runs to the end and leaves its arguments unchanged. -/
theorem frame_kernel : Cert.frame_Kernel := fun m ρ _ => Cert.Kernel.Body.frame m ρ

/-- So does the idealized program. -/
theorem frame_kernelIdeal : Cert.frame_KernelIdeal := fun m ρ _ => Cert.KernelIdeal.Body.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories agreeing on finite arguments both programs end with the pairwise scores grouped (H·W)·a: the
    reference by its run, the kernel program by its run and the associativity of the product over reals. -/
theorem algebraic : Cert.algebraic_KernelIdeal_ReferenceIdeal := by
  intro m ρ m' ρ' hpre hagree
  refine ⟨fun c => Cert.PairScores.scoresOuter
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.KernelScores.run m ρ)
    obtain ⟨hH, hW, ha⟩ := Cert.KernelIdeal.RealInputs.real_of_pre m hpre c
    exact Cert.PairScores.scoresInner_eq_scoresOuter _ _ _ hH hW ha
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
